-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000x4 : Shape := ⟨2, ![500000, 4]⟩
abbrev S50000x100 : Shape := ⟨2, ![50000, 100]⟩
abbrev S100x50000 : Shape := ⟨2, ![100, 50000]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x4 : S_.BroadcastsInDim S500000x4 (![] : Fin 0 → Fin S500000x4.rank)
  reducesTo_S500000x4_S_d0_1 : S500000x4.ReducesTo [0, 1] S_
  bcast_S_S50000x100 : S_.BroadcastsInDim S50000x100 (![] : Fin 0 → Fin S50000x100.rank)
  reducesTo_S50000x100_S_d0_1 : S50000x100.ReducesTo [0, 1] S_
  bcast_S_S100x50000 : S_.BroadcastsInDim S100x50000 (![] : Fin 0 → Fin S100x50000.rank)
  reducesTo_S100x50000_S_d0_1 : S100x50000.ReducesTo [0, 1] S_

variable [Facts]

def fn_part1 {F : FTy → Type} [FloatOps F] (main_v13 : IVec S_ 1) (main_v16 : IVec S100x50000 1) : IVec S_ 1 :=
  let main_c_5 : IVec S_ 1 := constantI S_ 1 1#1
  let main_v17 : IVec S_ 1 := (fun x v => Host.reduce IntOp.andi x v reducesTo_S100x50000_S_d0_1 h_S_) main_v16 main_c_5
  let main_v18 : IVec S_ 1 := andi main_v13 main_v17
  main_v18

def fn {F : FTy → Type} [FloatOps F] (main_arg0 : FVec F S100000x128 .f32) (main_arg1 : FVec F S500000x4 .f32) (main_arg2 : FVec F S50000x100 .f32) (main_arg3 : FVec F S100x50000 .f32) (main_arg4 : IVec S500000 32) (main_arg5 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x4 .f32 := Host.absf main_arg1
  let main_cst_0 : FVec F S_ .f32 := constant S_ .f32 0x7F800000#32
  let main_v5 : FVec F S500000x4 .f32 := broadcastInDim S500000x4 ![] bcast_S_S500000x4 main_cst_0
  let main_v6 : IVec S500000x4 1 := cmpf .olt main_v4 main_v5
  let main_c_1 : IVec S_ 1 := constantI S_ 1 1#1
  let main_v7 : IVec S_ 1 := (fun x v => Host.reduce IntOp.andi x v reducesTo_S500000x4_S_d0_1 h_S_) main_v6 main_c_1
  let main_v8 : IVec S_ 1 := andi main_v3 main_v7
  let main_v9 : FVec F S50000x100 .f32 := Host.absf main_arg2
  let main_cst_2 : FVec F S_ .f32 := constant S_ .f32 0x7F800000#32
  let main_v10 : FVec F S50000x100 .f32 := broadcastInDim S50000x100 ![] bcast_S_S50000x100 main_cst_2
  let main_v11 : IVec S50000x100 1 := cmpf .olt main_v9 main_v10
  let main_c_3 : IVec S_ 1 := constantI S_ 1 1#1
  let main_v12 : IVec S_ 1 := (fun x v => Host.reduce IntOp.andi x v reducesTo_S50000x100_S_d0_1 h_S_) main_v11 main_c_3
  let main_v13 : IVec S_ 1 := andi main_v8 main_v12
  let main_v14 : FVec F S100x50000 .f32 := Host.absf main_arg3
  let main_cst_4 : FVec F S_ .f32 := constant S_ .f32 0x7F800000#32
  let main_v15 : FVec F S100x50000 .f32 := broadcastInDim S100x50000 ![] bcast_S_S100x50000 main_cst_4
  let main_v16 : IVec S100x50000 1 := cmpf .olt main_v14 main_v15
  fn_part1 (F := F) main_v13 main_v16
-- ==== Kernel.lean ====
abbrev S100000x128 : Shape := ⟨2, ![100000, 128]⟩
abbrev S500000x4 : Shape := ⟨2, ![500000, 4]⟩
abbrev S50000x100 : Shape := ⟨2, ![50000, 100]⟩
abbrev S100x50000 : Shape := ⟨2, ![100, 50000]⟩
abbrev S500000 : Shape := ⟨1, ![500000]⟩
abbrev S128x4 : Shape := ⟨2, ![128, 4]⟩
abbrev S4x128 : Shape := ⟨2, ![4, 128]⟩
abbrev S_ : Shape := ⟨0, ![]⟩
abbrev S500000x1 : Shape := ⟨2, ![500000, 1]⟩
abbrev S100000x4 : Shape := ⟨2, ![100000, 4]⟩
abbrev S500000x128 : Shape := ⟨2, ![500000, 128]⟩
abbrev S10000x4 : Shape := ⟨2, ![10000, 4]⟩
abbrev S10000x128 : Shape := ⟨2, ![10000, 128]⟩
abbrev S10000x1 : Shape := ⟨2, ![10000, 1]⟩
abbrev S10000x32 : Shape := ⟨2, ![10000, 32]⟩

abbrev nBuf : Space → Nat
  | .hbm => 77
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S500000x4, .f32⟩
  | .hbm, ⟨2, _⟩ => ⟨S50000x100, .f32⟩
  | .hbm, ⟨3, _⟩ => ⟨S100x50000, .f32⟩
  | .hbm, ⟨4, _⟩ => ⟨S500000, .i32⟩
  | .hbm, ⟨5, _⟩ => ⟨S500000, .i32⟩
  | .hbm, ⟨6, _⟩ => ⟨S128x4, .f32⟩
  | .hbm, ⟨7, _⟩ => ⟨S4x128, .f32⟩
  | .hbm, ⟨8, _⟩ => ⟨S_, .f32⟩
  | .hbm, ⟨9, _⟩ => ⟨S500000, .f32⟩
  | .hbm, ⟨10, _⟩ => ⟨S_, .f32⟩
  | .hbm, ⟨11, _⟩ => ⟨S500000, .f32⟩
  | .hbm, ⟨12, _⟩ => ⟨S500000, .f32⟩
  | .hbm, ⟨13, _⟩ => ⟨S500000x1, .f32⟩
  | .hbm, ⟨14, _⟩ => ⟨S500000x4, .f32⟩
  | .hbm, ⟨15, _⟩ => ⟨S500000x4, .f32⟩
  | .hbm, ⟨16, _⟩ => ⟨S500000x4, .f32⟩
  | .hbm, ⟨17, _⟩ => ⟨S_, .f32⟩
  | .hbm, ⟨18, _⟩ => ⟨S500000, .f32⟩
  | .hbm, ⟨19, _⟩ => ⟨S500000x1, .f32⟩
  | .hbm, ⟨20, _⟩ => ⟨S500000x4, .f32⟩
  | .hbm, ⟨21, _⟩ => ⟨S500000x4, .f32⟩
  | .hbm, ⟨22, _⟩ => ⟨S_, .f32⟩
  | .hbm, ⟨23, _⟩ => ⟨S100000x4, .f32⟩
  | .hbm, ⟨24, _⟩ => ⟨S500000x1, .i32⟩
  | .hbm, ⟨25, _⟩ => ⟨S100000x4, .f32⟩
  | .hbm, ⟨26, _⟩ => ⟨S_, .f32⟩
  | .hbm, ⟨27, _⟩ => ⟨S100000x4, .f32⟩
  | .hbm, ⟨28, _⟩ => ⟨S100000x4, .f32⟩
  | .hbm, ⟨29, _⟩ => ⟨S100000x4, .f32⟩
  | .hbm, ⟨30, _⟩ => ⟨S_, .f32⟩
  | .hbm, ⟨31, _⟩ => ⟨S100000x4, .f32⟩
  | .hbm, ⟨32, _⟩ => ⟨S100000x4, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x4, .f32⟩
  | .hbm, ⟨42, _⟩ => ⟨S_, .i32⟩
  | .hbm, ⟨43, _⟩ => ⟨S500000, .i32⟩
  | .hbm, ⟨44, _⟩ => ⟨S500000, .i1⟩
  | .hbm, ⟨45, _⟩ => ⟨S_, .i32⟩
  | .hbm, ⟨46, _⟩ => ⟨S500000, .i32⟩
  | .hbm, ⟨47, _⟩ => ⟨S500000, .i32⟩
  | .hbm, ⟨48, _⟩ => ⟨S500000, .i32⟩
  | .hbm, ⟨49, _⟩ => ⟨S500000x1, .i32⟩
  | .hbm, ⟨50, _⟩ => ⟨S500000x4, .f32⟩
  | .hbm, ⟨51, _⟩ => ⟨S500000x4, .f32⟩
  | .hbm, ⟨52, _⟩ => ⟨S500000x4, .f32⟩
  | .hbm, ⟨53, _⟩ => ⟨S_, .i32⟩
  | .hbm, ⟨54, _⟩ => ⟨S500000, .i32⟩
  | .hbm, ⟨55, _⟩ => ⟨S500000, .i1⟩
  | .hbm, ⟨56, _⟩ => ⟨S_, .i32⟩
  | .hbm, ⟨57, _⟩ => ⟨S500000, .i32⟩
  | .hbm, ⟨58, _⟩ => ⟨S500000, .i32⟩
  | .hbm, ⟨59, _⟩ => ⟨S500000, .i32⟩
  | .hbm, ⟨60, _⟩ => ⟨S500000x1, .i32⟩
  | .hbm, ⟨61, _⟩ => ⟨S500000x128, .f32⟩
  | .hbm, ⟨62, _⟩ => ⟨S500000x128, .f32⟩
  | .hbm, ⟨63, _⟩ => ⟨S_, .f32⟩
  | .hbm, ⟨64, _⟩ => ⟨S100000x128, .f32⟩
  | .hbm, ⟨65, _⟩ => ⟨S500000x1, .i32⟩
  | .hbm, ⟨66, _⟩ => ⟨S100000x128, .f32⟩
  | .hbm, ⟨67, _⟩ => ⟨S_, .i32⟩
  | .hbm, ⟨68, _⟩ => ⟨S500000, .i32⟩
  | .hbm, ⟨69, _⟩ => ⟨S500000, .i1⟩
  | .hbm, ⟨70, _⟩ => ⟨S_, .i32⟩
  | .hbm, ⟨71, _⟩ => ⟨S500000, .i32⟩
  | .hbm, ⟨72, _⟩ => ⟨S500000, .i32⟩
  | .hbm, ⟨73, _⟩ => ⟨S500000, .i32⟩
  | .hbm, ⟨74, _⟩ => ⟨S500000x1, .i32⟩
  | .hbm, ⟨75, _⟩ => ⟨S500000x128, .f32⟩
  | .hbm, ⟨76, _⟩ => ⟨S500000x4, .f32⟩
  | .local _ .vmem, ⟨0, _⟩ => ⟨S10000x4, .f32⟩
  | .local _ .vmem, ⟨1, _⟩ => ⟨S10000x4, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S128x4, .f32⟩
  | .local _ .vmem, ⟨11, _⟩ => ⟨S4x128, .f32⟩
  | .local _ .vmem, ⟨12, _⟩ => ⟨S10000x4, .f32⟩
  | .local _ .vmem, ⟨13, _⟩ => ⟨S10000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_v0 : Ref sig .tc := ⟨.hbm, 9, rfl⟩
abbrev main_cst_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_7 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_v26 : Ref sig .tc := ⟨.hbm, 43, rfl⟩
abbrev main_v27 : Ref sig .tc := ⟨.hbm, 44, rfl⟩
abbrev main_c_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_c_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_13 : Ref sig .tc := ⟨.hbm, 67, rfl⟩
abbrev main_v46 : Ref sig .tc := ⟨.hbm, 68, rfl⟩
abbrev main_v47 : Ref sig .tc := ⟨.hbm, 69, rfl⟩
abbrev main_c_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  reducesTo_S500000x4_S500000_d1 : S500000x4.ReducesTo [1] S500000
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x4_0_1 : S500000x1.BroadcastsInDim S500000x4 (![0, 1] : Fin 2 → Fin S500000x4.rank)
  bcast_S_S100000x4 : S_.BroadcastsInDim S100000x4 (![] : Fin 0 → Fin S100000x4.rank)
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  slices_S10000x4_o0_0_S10000x1 : S10000x4.Slices ![0, 0] S10000x1
  inb_S10000x128_S10000x32_0_0 : ∀ a, (![0, 0] : Fin 2 → Nat) a + S10000x32.size a ≤ S10000x128.size a
  h_S10000x32 : 0 < S10000x32.numel
  shapeCasts_S10000x32_S10000x32 : S10000x32.ShapeCasts S10000x32
  broadcasts_S10000x1_S10000x32 : S10000x1.Broadcasts S10000x32
  slices_S10000x4_o0_1_S10000x1 : S10000x4.Slices ![0, 1] S10000x1
  inb_S10000x128_S10000x32_0_32 : ∀ a, (![0, 32] : Fin 2 → Nat) a + S10000x32.size a ≤ S10000x128.size a
  slices_S10000x4_o0_2_S10000x1 : S10000x4.Slices ![0, 2] S10000x1
  inb_S10000x128_S10000x32_0_64 : ∀ a, (![0, 64] : Fin 2 → Nat) a + S10000x32.size a ≤ S10000x128.size a
  slices_S10000x4_o0_3_S10000x1 : S10000x4.Slices ![0, 3] S10000x1
  inb_S10000x128_S10000x32_0_96 : ∀ a, (![0, 96] : Fin 2 → Nat) a + S10000x32.size a ≤ S10000x128.size a
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x4_S128x4_0_0 : ∀ a, (![0, 0] : Fin 2 → Nat) a + S128x4.size a ≤ S128x4.size a
  h_S128x4 : 0 < S128x4.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  scatter_S100000x4_S500000x1_S500000x4_1_0_0_1_wf : ScatterDims.WF S100000x4 S500000x1 S500000x4 [1] [0] [0] 1
  gather_S100000x4_S500000x1_S500000x4_1_0_n_n_0_1_14_wf : GatherDims.WF S100000x4 S500000x1 S500000x4 [1] [0] [] [0] [] 1 ![1, 4]
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S10000x128_S128x4_S10000x4_1_0_0_1_n_n_wf : DotDims.WF S10000x128 S128x4 S10000x4 [1] [0] [0] [1] [] []
  dot_S10000x4_S4x128_S10000x128_1_0_0_1_n_n_wf : DotDims.WF S10000x4 S4x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S500000x4.size a
  hwx0_0 : ∀ i : grid0.Coords, EltTy.bits .f32 = 32 ∨ (Rect.block (s := S500000x4) S10000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S500000x128.size a
  hwx0_1 : ∀ i : grid0.Coords, EltTy.bits .f32 = 32 ∨ (Rect.block (s := S500000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S500000x128.size a
  hwx0_2 : ∀ i : grid0.Coords, EltTy.bits .f32 = 32 ∨ (Rect.block (s := S500000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S500000x128.size a
  hwx1_0 : ∀ i : grid1.Coords, EltTy.bits .f32 = 32 ∨ (Rect.block (s := S500000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S500000x128.size a
  hwx1_1 : ∀ i : grid1.Coords, EltTy.bits .f32 = 32 ∨ (Rect.block (s := S500000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x4.size a ≤ S128x4.size a
  hwx1_2 : ∀ i : grid1.Coords, EltTy.bits .f32 = 32 ∨ (Rect.block (s := S128x4) S128x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x128.size a ≤ S4x128.size a
  hwx1_3 : ∀ i : grid1.Coords, EltTy.bits .f32 = 32 ∨ (Rect.block (s := S4x128) S4x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x4.size a ≤ S500000x4.size a
  hwx1_4 : ∀ i : grid1.Coords, EltTy.bits .f32 = 32 ∨ (Rect.block (s := S500000x4) S10000x4.size (cc1_transform_4 i) (hinb1_4 i)).WholeWords (EltTy.packing .f32)

variable [Facts₀]

def scatter_S100000x4_S500000x1_S500000x4_1_0_0_1 : ScatterDims S100000x4 S500000x1 S500000x4 where
  updateWindowDims := [1]
  insertedWindowDims := [0]
  scatterDimsToOperandDims := [0]
  indexVectorDim := 1
  wf := scatter_S100000x4_S500000x1_S500000x4_1_0_0_1_wf
def gather_S100000x4_S500000x1_S500000x4_1_0_n_n_0_1_14 : GatherDims S100000x4 S500000x1 S500000x4 where
  offsetDims := [1]
  collapsedSliceDims := [0]
  operandBatchingDims := []
  startIndicesBatchingDims := []
  startIndexMap := [0]
  indexVectorDim := 1
  sliceSizes := ![1, 4]
  wf := gather_S100000x4_S500000x1_S500000x4_1_0_n_n_0_1_14_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S10000x128_S128x4_S10000x4_1_0_0_1_n_n : DotDims S10000x128 S128x4 S10000x4 where
  lhsContracting := [1]
  rhsContracting := [0]
  lhsNonContracting := [0]
  rhsNonContracting := [1]
  lhsBatch := []
  rhsBatch := []
  wf := dot_S10000x128_S128x4_S10000x4_1_0_0_1_n_n_wf
def dot_S10000x4_S4x128_S10000x128_1_0_0_1_n_n : DotDims S10000x4 S4x128 S10000x128 where
  lhsContracting := [1]
  rhsContracting := [0]
  lhsNonContracting := [0]
  rhsNonContracting := [1]
  lhsBatch := []
  rhsBatch := []
  wf := dot_S10000x4_S4x128_S10000x128_1_0_0_1_n_n_wf

abbrev win0_0 : Pipeline.Window sig grid0 :=
  Pipeline.Window.ofSpec (Memref.whole main_v34) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_cst) S128x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_cst_0) S4x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S10000x4.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S500000x4 : Shape := ⟨2, ![500000, 4]⟩
abbrev S50000x100 : Shape := ⟨2, ![50000, 100]⟩
abbrev S100x50000 : Shape := ⟨2, ![100, 50000]⟩
abbrev S500000 : Shape := ⟨1, ![500000]⟩
abbrev S100000x4x32 : Shape := ⟨3, ![100000, 4, 32]⟩
abbrev S_ : Shape := ⟨0, ![]⟩
abbrev S500000x1 : Shape := ⟨2, ![500000, 1]⟩
abbrev S100000x4 : Shape := ⟨2, ![100000, 4]⟩
abbrev S500000x4x32 : Shape := ⟨3, ![500000, 4, 32]⟩
abbrev S500000x4x1 : Shape := ⟨3, ![500000, 4, 1]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000x4, .f32⟩
  | .hbm, ⟨2, _⟩ => ⟨S50000x100, .f32⟩
  | .hbm, ⟨3, _⟩ => ⟨S100x50000, .f32⟩
  | .hbm, ⟨4, _⟩ => ⟨S500000, .i32⟩
  | .hbm, ⟨5, _⟩ => ⟨S500000, .i32⟩
  | .hbm, ⟨6, _⟩ => ⟨S100000x4x32, .f32⟩
  | .hbm, ⟨7, _⟩ => ⟨S_, .f32⟩
  | .hbm, ⟨8, _⟩ => ⟨S500000, .f32⟩
  | .hbm, ⟨9, _⟩ => ⟨S_, .f32⟩
  | .hbm, ⟨10, _⟩ => ⟨S500000, .f32⟩
  | .hbm, ⟨11, _⟩ => ⟨S500000, .f32⟩
  | .hbm, ⟨12, _⟩ => ⟨S500000x1, .f32⟩
  | .hbm, ⟨13, _⟩ => ⟨S500000x4, .f32⟩
  | .hbm, ⟨14, _⟩ => ⟨S500000x4, .f32⟩
  | .hbm, ⟨15, _⟩ => ⟨S500000x4, .f32⟩
  | .hbm, ⟨16, _⟩ => ⟨S_, .f32⟩
  | .hbm, ⟨17, _⟩ => ⟨S500000, .f32⟩
  | .hbm, ⟨18, _⟩ => ⟨S500000x1, .f32⟩
  | .hbm, ⟨19, _⟩ => ⟨S500000x4, .f32⟩
  | .hbm, ⟨20, _⟩ => ⟨S500000x4, .f32⟩
  | .hbm, ⟨21, _⟩ => ⟨S_, .f32⟩
  | .hbm, ⟨22, _⟩ => ⟨S100000x4, .f32⟩
  | .hbm, ⟨23, _⟩ => ⟨S500000x1, .i32⟩
  | .hbm, ⟨24, _⟩ => ⟨S100000x4, .f32⟩
  | .hbm, ⟨25, _⟩ => ⟨S_, .f32⟩
  | .hbm, ⟨26, _⟩ => ⟨S100000x4, .f32⟩
  | .hbm, ⟨27, _⟩ => ⟨S100000x4, .f32⟩
  | .hbm, ⟨28, _⟩ => ⟨S100000x4, .f32⟩
  | .hbm, ⟨29, _⟩ => ⟨S_, .f32⟩
  | .hbm, ⟨30, _⟩ => ⟨S100000x4, .f32⟩
  | .hbm, ⟨31, _⟩ => ⟨S100000x4, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000x4, .f32⟩
  | .hbm, ⟨41, _⟩ => ⟨S500000x4, .f32⟩
  | .hbm, ⟨42, _⟩ => ⟨S_, .i32⟩
  | .hbm, ⟨43, _⟩ => ⟨S500000, .i32⟩
  | .hbm, ⟨44, _⟩ => ⟨S500000, .i1⟩
  | .hbm, ⟨45, _⟩ => ⟨S_, .i32⟩
  | .hbm, ⟨46, _⟩ => ⟨S500000, .i32⟩
  | .hbm, ⟨47, _⟩ => ⟨S500000, .i32⟩
  | .hbm, ⟨48, _⟩ => ⟨S500000, .i32⟩
  | .hbm, ⟨49, _⟩ => ⟨S500000x1, .i32⟩
  | .hbm, ⟨50, _⟩ => ⟨S500000x4, .f32⟩
  | .hbm, ⟨51, _⟩ => ⟨S500000x4, .f32⟩
  | .hbm, ⟨52, _⟩ => ⟨S_, .i32⟩
  | .hbm, ⟨53, _⟩ => ⟨S500000, .i32⟩
  | .hbm, ⟨54, _⟩ => ⟨S500000, .i1⟩
  | .hbm, ⟨55, _⟩ => ⟨S_, .i32⟩
  | .hbm, ⟨56, _⟩ => ⟨S500000, .i32⟩
  | .hbm, ⟨57, _⟩ => ⟨S500000, .i32⟩
  | .hbm, ⟨58, _⟩ => ⟨S500000, .i32⟩
  | .hbm, ⟨59, _⟩ => ⟨S500000x1, .i32⟩
  | .hbm, ⟨60, _⟩ => ⟨S500000x4x32, .f32⟩
  | .hbm, ⟨61, _⟩ => ⟨S500000x4x1, .f32⟩
  | .hbm, ⟨62, _⟩ => ⟨S500000x4x32, .f32⟩
  | .hbm, ⟨63, _⟩ => ⟨S500000x4x32, .f32⟩
  | .hbm, ⟨64, _⟩ => ⟨S_, .f32⟩
  | .hbm, ⟨65, _⟩ => ⟨S100000x4x32, .f32⟩
  | .hbm, ⟨66, _⟩ => ⟨S500000x1, .i32⟩
  | .hbm, ⟨67, _⟩ => ⟨S100000x4x32, .f32⟩
  | .hbm, ⟨68, _⟩ => ⟨S_, .i32⟩
  | .hbm, ⟨69, _⟩ => ⟨S500000, .i32⟩
  | .hbm, ⟨70, _⟩ => ⟨S500000, .i1⟩
  | .hbm, ⟨71, _⟩ => ⟨S_, .i32⟩
  | .hbm, ⟨72, _⟩ => ⟨S500000, .i32⟩
  | .hbm, ⟨73, _⟩ => ⟨S500000, .i32⟩
  | .hbm, ⟨74, _⟩ => ⟨S500000, .i32⟩
  | .hbm, ⟨75, _⟩ => ⟨S500000x1, .i32⟩
  | .hbm, ⟨76, _⟩ => ⟨S500000x4x32, .f32⟩
  | .hbm, ⟨77, _⟩ => ⟨S500000x4x32, .f32⟩
  | .hbm, ⟨78, _⟩ => ⟨S_, .f32⟩
  | .hbm, ⟨79, _⟩ => ⟨S500000x4, .f32⟩
  | .hbm, ⟨80, _⟩ => ⟨S500000x4x1, .f32⟩
  | .hbm, ⟨81, _⟩ => ⟨S500000x4x1, .f32⟩
  | .hbm, ⟨82, _⟩ => ⟨S_, .f32⟩
  | .hbm, ⟨83, _⟩ => ⟨S500000x4x1, .f32⟩
  | .hbm, ⟨84, _⟩ => ⟨S500000x4x1, .f32⟩
  | .hbm, ⟨85, _⟩ => ⟨S500000x4x32, .f32⟩
  | .hbm, ⟨86, _⟩ => ⟨S500000x4x32, .f32⟩
  | .hbm, ⟨87, _⟩ => ⟨S_, .i32⟩
  | .hbm, ⟨88, _⟩ => ⟨S500000, .i32⟩
  | .hbm, ⟨89, _⟩ => ⟨S500000, .i1⟩
  | .hbm, ⟨90, _⟩ => ⟨S_, .i32⟩
  | .hbm, ⟨91, _⟩ => ⟨S500000, .i32⟩
  | .hbm, ⟨92, _⟩ => ⟨S500000, .i32⟩
  | .hbm, ⟨93, _⟩ => ⟨S500000, .i32⟩
  | .hbm, ⟨94, _⟩ => ⟨S500000x1, .i32⟩
  | .hbm, ⟨95, _⟩ => ⟨S500000x4x32, .f32⟩
  | .hbm, ⟨96, _⟩ => ⟨S500000x4x32, .f32⟩
  | .hbm, ⟨97, _⟩ => ⟨S_, .f32⟩
  | .hbm, ⟨98, _⟩ => ⟨S500000x4, .f32⟩
  | .hbm, ⟨99, _⟩ => ⟨S500000x4x1, .f32⟩
  | .hbm, ⟨100, _⟩ => ⟨S500000x4x1, .f32⟩
  | .hbm, ⟨101, _⟩ => ⟨S_, .f32⟩
  | .hbm, ⟨102, _⟩ => ⟨S500000x4x1, .f32⟩
  | .hbm, ⟨103, _⟩ => ⟨S500000x4x1, .f32⟩
  | .hbm, ⟨104, _⟩ => ⟨S500000x4x32, .f32⟩
  | .hbm, ⟨105, _⟩ => ⟨S500000x4x32, .f32⟩
  | .hbm, ⟨106, _⟩ => ⟨S500000x4x32, .f32⟩
  | .hbm, ⟨107, _⟩ => ⟨S500000x4x32, .f32⟩
  | .hbm, ⟨108, _⟩ => ⟨S_, .f32⟩
  | .hbm, ⟨109, _⟩ => ⟨S500000x4, .f32⟩
  | .hbm, ⟨110, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_c_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_15 : Ref sig .tc := ⟨.hbm, 87, rfl⟩
abbrev main_v64 : Ref sig .tc := ⟨.hbm, 88, rfl⟩
abbrev main_v65 : Ref sig .tc := ⟨.hbm, 89, rfl⟩
abbrev main_c_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_17 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_18 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_19 : Ref sig .tc := ⟨.hbm, 108, rfl⟩
abbrev main_v81 : Ref sig .tc := ⟨.hbm, 109, rfl⟩
abbrev main_v82 : Ref sig .tc := ⟨.hbm, 110, rfl⟩

abbrev nD : Nat := 1
abbrev τ : Topo := Topo.v7x

variable {F : FTy → Type} [FloatOps F]

class Facts₀ : Prop where
  shapeCasts_S100000x128_S100000x4x32 : S100000x128.ShapeCasts S100000x4x32
  reducesTo_S500000x4_S500000_d1 : S500000x4.ReducesTo [1] S500000
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x4_0_1 : S500000x1.BroadcastsInDim S500000x4 (![0, 1] : Fin 2 → Fin S500000x4.rank)
  bcast_S_S100000x4 : S_.BroadcastsInDim S100000x4 (![] : Fin 0 → Fin S100000x4.rank)
  bcast_S500000x4_S500000x4x1_0_1 : S500000x4.BroadcastsInDim S500000x4x1 (![0, 1] : Fin 2 → Fin S500000x4x1.rank)
  bcast_S500000x4x1_S500000x4x32_0_1_2 : S500000x4x1.BroadcastsInDim S500000x4x32 (![0, 1, 2] : Fin 3 → Fin S500000x4x32.rank)
  bcast_S_S100000x4x32 : S_.BroadcastsInDim S100000x4x32 (![] : Fin 0 → Fin S100000x4x32.rank)
  reducesTo_S500000x4x32_S500000x4_d2 : S500000x4x32.ReducesTo [2] S500000x4
  bcast_S_S500000x4x1 : S_.BroadcastsInDim S500000x4x1 (![] : Fin 0 → Fin S500000x4x1.rank)
  shapeCasts_S100000x4x32_S100000x128 : S100000x4x32.ShapeCasts S100000x128
  scatter_S100000x4_S500000x1_S500000x4_1_0_0_1_wf : ScatterDims.WF S100000x4 S500000x1 S500000x4 [1] [0] [0] 1
  gather_S100000x4_S500000x1_S500000x4_1_0_n_n_0_1_14_wf : GatherDims.WF S100000x4 S500000x1 S500000x4 [1] [0] [] [0] [] 1 ![1, 4]
  gather_S100000x4x32_S500000x1_S500000x4x32_12_0_n_n_0_1_1432_wf : GatherDims.WF S100000x4x32 S500000x1 S500000x4x32 [1, 2] [0] [] [0] [] 1 ![1, 4, 32]
  scatter_S100000x4x32_S500000x1_S500000x4x32_12_0_0_1_wf : ScatterDims.WF S100000x4x32 S500000x1 S500000x4x32 [1, 2] [0] [0] 1

variable [Facts₀]

def scatter_S100000x4_S500000x1_S500000x4_1_0_0_1 : ScatterDims S100000x4 S500000x1 S500000x4 where
  updateWindowDims := [1]
  insertedWindowDims := [0]
  scatterDimsToOperandDims := [0]
  indexVectorDim := 1
  wf := scatter_S100000x4_S500000x1_S500000x4_1_0_0_1_wf
def gather_S100000x4_S500000x1_S500000x4_1_0_n_n_0_1_14 : GatherDims S100000x4 S500000x1 S500000x4 where
  offsetDims := [1]
  collapsedSliceDims := [0]
  operandBatchingDims := []
  startIndicesBatchingDims := []
  startIndexMap := [0]
  indexVectorDim := 1
  sliceSizes := ![1, 4]
  wf := gather_S100000x4_S500000x1_S500000x4_1_0_n_n_0_1_14_wf
def gather_S100000x4x32_S500000x1_S500000x4x32_12_0_n_n_0_1_1432 : GatherDims S100000x4x32 S500000x1 S500000x4x32 where
  offsetDims := [1, 2]
  collapsedSliceDims := [0]
  operandBatchingDims := []
  startIndicesBatchingDims := []
  startIndexMap := [0]
  indexVectorDim := 1
  sliceSizes := ![1, 4, 32]
  wf := gather_S100000x4x32_S500000x1_S500000x4x32_12_0_n_n_0_1_1432_wf
def scatter_S100000x4x32_S500000x1_S500000x4x32_12_0_0_1 : ScatterDims S100000x4x32 S500000x1 S500000x4x32 where
  updateWindowDims := [1, 2]
  insertedWindowDims := [0]
  scatterDimsToOperandDims := [0]
  indexVectorDim := 1
  wf := scatter_S100000x4x32_S500000x1_S500000x4x32_12_0_0_1_wf

class Facts : Prop extends Facts₀ where

variable [Facts]
-- ==== Proof.KernelRun.lean ====
/-
  Where the idealized kernel's run ends. Its @main is four segments in a row: a stretch of host operations (the
  softmax of the edge scores, the degrees, the edge weights and the gathered feature rows), the first kernel (every
  gathered row scaled, capsule by capsule, by its edge's weights), a second stretch (the scaled rows added up per
  source node, and the sums gathered back per edge) and the second kernel (the per-capsule combination of the two
  normalised rows). The buffer contents at the boundary after each segment are a fold from the launch memory: a host
  stretch applies its operations, a kernel replaces its arrays by what its write-backs leave and keeps the rest.
  The one theorem here: every weakly fair execution of @main terminates without a fault, and in its final state
  EVERY buffer that is not scoped to a kernel holds the last boundary's contents. Each result array and each
  argument array is such a buffer, so what the program returns is read off the fold.
-/
import proofs.«124905_j71279277244617_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run theorem's implicit arguments are found by unifying its conclusion with this statement, which takes
-- unfolding plain definitions inside a metavariable's type
set_option backward.isDefEq.respectTransparency.types false in
/-- THE RUN, WITH THE WHOLE FINAL STATE READ: from any memory with zero counters, every weakly fair execution of
    @main terminates, nothing faulting, and each unscoped buffer `b` of each core `c` ends at `W4 m ρ c b`, the
    contents at the boundary after the second kernel. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- A buffer of the TensorCore that no kernel scopes is among those the final state is read at. -/
theorem read_at (b : Ref sig .tc) (hb : ¬ (Proc.devRef .tc b : DevRef τ sig).isScoped)
    {r : PUnit × MemSt nD τ sig (Elt F)}
    (h : ∀ c : Dev nD, ∀ b ∈ Pipeline.ucRefs τ sig, r.2.mem (((c : Thread nD τ)).1, b) = W4 m ρ c b) (c : Dev nD) :
    r.2.mem (((c : Thread nD τ)).1, Proc.devRef .tc b) = W4 m ρ c (Proc.devRef .tc b) :=
  h c _ (mem_uc b hb)

end Cert.KernelIdeal.Fold

end
-- ==== Proof.KernelHost0.lean ====
/-
  What the idealized kernel's first stretch of host operations leaves for the two kernels to read. From the launch
  memory the stretch computes, among its 56 operations: the edge weights (the softmax of each edge's four scores,
  divided by the square roots of the clamped degrees of the edge's two end nodes); the rows of the node features
  taken at each edge's target; and the two constant 0/1 matrices that mark which of the 128 feature lanes belong to
  which of the 4 capsules. The reference program computes the same weights and the same index columns by the same
  operations, so they are named here by the reference's own stages: the weight array IS the reference's, as a
  function of the edge scores and the two index vectors.
-/
import proofs.«124905_j71279277244617_2_alg».proof.Proof.Gen.KernelIdeal.Frame
import proofs.«124905_j71279277244617_2_alg».proof.Proof.Gen.ReferenceIdeal.Read
import Idealize.ShloMosaic.Lib.StableHlo.Run
import Idealize.ShloMosaic.PureOps.Ideal
import Idealize.ShloMosaic.PureOps.Ideal.Laws

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The rows of the node features taken at each edge's target: the row gather of `x` at the target column (each
    target read signed, a negative one shifted up by the node count, then one entry per row). -/
theorem W1_rows (c : Dev nD) :
    (W1 m ρ c (Proc.devRef .tc main_v41) : (⟨S500000x128, .f32⟩ : BufTy).Contents (Elt Ideal))
      = Host.gather gather_S100000x128_S500000x1_S500000x128_1_0_n_n_0_1_1128 (m ((c : Thread nD τ).loc main_arg0))
          (Cert.ReferenceIdeal.Read.val_main_v41 (F := Ideal) (m ((c : Thread nD τ).loc main_arg5))) := by
  show StableHlo.after hostOps0 (W0 m ρ c) (Proc.devRef .tc main_v41) = _
  after_results_simp
  rfl

/-- The edge weights: the reference's weight stage of the edge scores and the two index vectors. -/
theorem W1_weights (c : Dev nD) :
    (W1 m ρ c (Proc.devRef .tc main_v34) : (⟨S500000x4, .f32⟩ : BufTy).Contents (Elt Ideal))
      = Cert.ReferenceIdeal.Read.val_main_v35 (F := Ideal) (m ((c : Thread nD τ).loc main_arg1))
          (m ((c : Thread nD τ).loc main_arg4)) (m ((c : Thread nD τ).loc main_arg5)) := by
  show StableHlo.after hostOps0 (W0 m ρ c) (Proc.devRef .tc main_v34) = _
  after_results_simp
  rfl

/-- The 128 × 4 matrix marking each lane's capsule, as its 512 binary32 words row-major. -/
theorem W1_selector (c : Dev nD) :
    (W1 m ρ c (Proc.devRef .tc main_cst) : (⟨S128x4, .f32⟩ : BufTy).Contents (Elt Ideal))
      = (fun i => FloatOps.ofBits (F := Ideal) .f32 (lit0 (S128x4.rowMajor i)) : (⟨S128x4, .f32⟩ : BufTy).Contents (Elt Ideal)) := by
  show StableHlo.after hostOps0 (W0 m ρ c) (Proc.devRef .tc main_cst) = _
  after_results_simp
  rfl

/-- Its transpose, 4 × 128. -/
theorem W1_selectorT (c : Dev nD) :
    (W1 m ρ c (Proc.devRef .tc main_cst_0) : (⟨S4x128, .f32⟩ : BufTy).Contents (Elt Ideal))
      = (fun i => FloatOps.ofBits (F := Ideal) .f32 (lit1 (S4x128.rowMajor i)) : (⟨S4x128, .f32⟩ : BufTy).Contents (Elt Ideal)) := by
  show StableHlo.after hostOps0 (W0 m ρ c) (Proc.devRef .tc main_cst_0) = _
  after_results_simp
  rfl

end Cert.KernelIdeal.Fold

end
-- ==== Proof.LibBlockSelector.lean ====
/-
  Sums against a block selector. Split the indices `0 … C·D − 1` into `C` consecutive blocks of width `D`; the
  selector of block `c` is the 0/1 function `k ↦ [k / D = c]`. Two facts, on the extended reals (where
  `a · 0 = 0` and `a · 1 = a` hold for EVERY `a`, infinite ones included, so no finiteness is asked):
  summing `f k · [k / D = c]` over all `k` is summing `f` over block `c`, and summing `g c · [k / D = c]` over all
  blocks `c` is `g` at the block of `k`. A matrix product with the 0/1 matrix `[k / D = c]` (or its transpose) is
  therefore a sum over each block (or the spreading of one value per block over the block's columns).
-/
import Mathlib.Data.EReal.Basic
import Mathlib.Algebra.BigOperators.Fin

open scoped BigOperators

namespace Idealize.ShloMosaic.BlockSelector

/-- The `d`-th index of block `c`. -/
def blockIdx {K C D : Nat} (hK : K = C * D) (c : Fin C) (d : Fin D) : Fin K :=
  ⟨c.val * D + d.val, by
    subst hK
    calc c.val * D + d.val < c.val * D + D := Nat.add_lt_add_left d.isLt _
      _ = (c.val + 1) * D := by rw [Nat.add_mul, Nat.one_mul]
      _ ≤ C * D := Nat.mul_le_mul_right D c.isLt⟩

@[simp] theorem blockIdx_val {K C D : Nat} (hK : K = C * D) (c : Fin C) (d : Fin D) :
    (blockIdx hK c d).val = c.val * D + d.val := rfl

/-- The block of an index. -/
def blockOf {K C D : Nat} (hK : K = C * D) (hD : 0 < D) (k : Fin K) : Fin C :=
  ⟨k.val / D, by
    have hk := k.isLt
    subst hK
    exact Nat.div_lt_of_lt_mul (lt_of_lt_of_eq hk (Nat.mul_comm C D))⟩

@[simp] theorem blockOf_val {K C D : Nat} (hK : K = C * D) (hD : 0 < D) (k : Fin K) :
    (blockOf hK hD k).val = k.val / D := rfl

/-- The `d`-th index of block `c` lies in block `c`. -/
theorem blockIdx_div {K C D : Nat} (hK : K = C * D) (c : Fin C) (d : Fin D) :
    (blockIdx hK c d).val / D = c.val := by
  have hD : 0 < D := Nat.lt_of_le_of_lt (Nat.zero_le _) d.isLt
  rw [blockIdx_val, Nat.add_comm, Nat.add_mul_div_right _ _ hD, Nat.div_eq_of_lt d.isLt, Nat.zero_add]

/-- SUMMING AGAINST THE SELECTOR OF BLOCK `c` IS SUMMING OVER BLOCK `c`: the terms outside the block are `f k · 0 = 0`,
    those inside are `f k · 1 = f k`, and `d ↦ c·D + d` enumerates the block. -/
theorem sum_mul_selector {K C D : Nat} (hK : K = C * D) (f : Fin K → EReal) (c : Fin C) :
    ∑ k : Fin K, f k * (if k.val / D = c.val then (1 : EReal) else 0) = ∑ d : Fin D, f (blockIdx hK c d) := by
  classical
  have h1 : ∀ k : Fin K, f k * (if k.val / D = c.val then (1 : EReal) else 0) = if k.val / D = c.val then f k else 0 := by
    intro k
    split
    · rw [mul_one]
    · rw [mul_zero]
  rw [Finset.sum_congr rfl (fun k _ => h1 k), ← Finset.sum_filter]
  symm
  refine Finset.sum_bij (fun d _ => blockIdx hK c d) ?_ ?_ ?_ ?_
  · intro d _
    exact Finset.mem_filter.mpr ⟨Finset.mem_univ _, blockIdx_div hK c d⟩
  · intro d₁ _ d₂ _ h
    have := congrArg Fin.val h
    simp only [blockIdx_val] at this
    exact Fin.ext (by omega)
  · intro k hk
    have hkc : k.val / D = c.val := (Finset.mem_filter.mp hk).2
    have hD : 0 < D := by
      rcases Nat.eq_zero_or_pos D with h0 | h0
      · exfalso
        have hk' := k.isLt
        subst hK
        subst h0
        simp at hk'
      · exact h0
    refine ⟨⟨k.val % D, Nat.mod_lt _ hD⟩, Finset.mem_univ _, Fin.ext ?_⟩
    have := Nat.div_add_mod k.val D
    simp only [blockIdx_val]
    rw [← hkc, Nat.mul_comm]
    exact this
  · intro d _
    rfl

/-- SUMMING ONE VALUE PER BLOCK AGAINST THE SELECTORS AT A FIXED INDEX `k` PICKS THE VALUE OF `k`'s BLOCK: only the
    block of `k` has selector `1` at `k`. -/
theorem sum_selector_mul {K C D : Nat} (hK : K = C * D) (hD : 0 < D) (g : Fin C → EReal) (k : Fin K) :
    ∑ c : Fin C, g c * (if k.val / D = c.val then (1 : EReal) else 0) = g (blockOf hK hD k) := by
  classical
  rw [Finset.sum_eq_single (blockOf hK hD k)]
  · rw [if_pos (blockOf_val hK hD k).symm, mul_one]
  · intro c _ hc
    rw [if_neg, mul_zero]
    intro h
    exact hc (Fin.ext (by rw [blockOf_val]; exact h.symm))
  · intro h
    exact absurd (Finset.mem_univ _) h

end Idealize.ShloMosaic.BlockSelector
-- ==== Proof.Routing.lean ====
/-
  The capsule-routing layer as two functions of what both programs share. There are 100000 nodes with 128 features
  each, read as 4 capsules of 32 lanes, and 500000 edges. Given the node features `x`, one weight per edge and
  capsule `W`, and three columns of integer node indices (one entry per edge): `iT` naming each edge's target and
  `iS` its source, both used to TAKE a row (the entry is read as a signed integer and clamped into the node
  range), and `iA` naming the source again where rows are ADDED (read signed, an entry outside the range is dropped),
    new features    newX (n, k)    = the sum over the edges e that add to node n of  x (target e, k) · W (e, capsule of k)
    new edge scores newEdge (e, c) = the sum over the 32 lanes k of capsule c of  unit(H)(e, k) · tanh (unit(T)(e, k))
  where H is the row of `newX` taken at e's source, T the row of `x` taken at e's target, and `unit` divides a row,
  capsule by capsule, by the larger of the capsule's Euclidean norm and the constant 1e-12 (as a binary32 word).
  Everything is on the extended reals, with the ideal square root, quotient and hyperbolic tangent.
-/
import Idealize.ShloMosaic.PureOps.Ideal
import Idealize.ShloMosaic.PureOps.Ideal.Laws
import Idealize.ShloMosaic.Lib.ValueIdx
import proofs.«124905_j71279277244617_2_alg».proof.Proof.LibBlockSelector

noncomputable section

open scoped BigOperators

namespace Cert.Routing

open Idealize.ShloMosaic Idealize.ShloMosaic.ValueIdx Idealize.ShloMosaic.BlockSelector

/-- Node features: 100000 nodes by 128 features. -/
abbrev SNode : Shape := ⟨2, ![100000, 128]⟩
/-- One row of 128 features per edge. -/
abbrev SEdge : Shape := ⟨2, ![500000, 128]⟩
/-- One value per edge and capsule. -/
abbrev SCap : Shape := ⟨2, ![500000, 4]⟩
/-- A column of node indices, one per edge. -/
abbrev SCol : Shape := ⟨2, ![500000, 1]⟩

/-- The capsule a feature lane belongs to: lanes `32 c … 32 c + 31` are capsule `c`. -/
def cap (k : Fin 128) : Fin 4 := blockOf (K := 128) (C := 4) (D := 32) rfl (by decide) k
/-- Lane `d` of capsule `c`. -/
def lane (c : Fin 4) (d : Fin 32) : Fin 128 := blockIdx (K := 128) (C := 4) (D := 32) rfl c d

theorem cap_val (k : Fin 128) : (cap k).val = k.val / 32 := rfl
theorem lane_val (c : Fin 4) (d : Fin 32) : (lane c d).val = c.val * 32 + d.val := rfl
theorem cap_lane (c : Fin 4) (d : Fin 32) : cap (lane c d) = c := Fin.ext (blockIdx_div (K := 128) (C := 4) (D := 32) rfl c d)

/-- The node an index entry names when a row is taken: the entry read as a signed integer, clamped into the node
    range. -/
def takenRow (idx : IVec SCol 32) (e : Fin 500000) : Fin 100000 :=
  ⟨min (idx (ix2 e (0 : Fin 1))).toInt.toNat (100000 - 1), by omega⟩

/-- Rows of a node array taken at a column of indices. -/
def taken (x : SNode.Idx → EReal) (idx : IVec SCol 32) : SEdge.Idx → EReal :=
  fun j => x (ix2 (takenRow idx ⟨(j 0).val, idx2_lt0 j⟩) ⟨(j 1).val, idx2_lt1 j⟩)

theorem taken_apply (x : SNode.Idx → EReal) (idx : IVec SCol 32) (e : Fin 500000) (k : Fin 128) :
    taken x idx (ix2 e k) = x (ix2 (takenRow idx e) k) := rfl

/-- Each row scaled, capsule by capsule, by its edge's weights. -/
def weighted (V : SEdge.Idx → EReal) (W : SCap.Idx → EReal) : SEdge.Idx → EReal :=
  fun j => V j * W (ix2 ⟨(j 0).val, idx2_lt0 j⟩ (cap ⟨(j 1).val, idx2_lt1 j⟩))

theorem weighted_apply (V : SEdge.Idx → EReal) (W : SCap.Idx → EReal) (e : Fin 500000) (k : Fin 128) :
    weighted V W (ix2 e k) = V (ix2 e k) * W (ix2 e (cap k)) := rfl

/-- Rows added up per node: node `n` receives the rows of the edges whose index entry, read signed, is `n`. -/
def addedUp (idx : IVec SCol 32) (U : SEdge.Idx → EReal) : SNode.Idx → EReal :=
  fun j => ∑ e ∈ Finset.univ.filter (fun e : Fin 500000 => (idx (ix2 e (0 : Fin 1))).toInt = (((j 0).val : Nat) : Int)),
    U (ix2 e ⟨(j 1).val, idx2_lt1 j⟩)

theorem addedUp_apply (idx : IVec SCol 32) (U : SEdge.Idx → EReal) (v : Fin 100000) (k : Fin 128) :
    addedUp idx U (ix2 v k)
      = ∑ e ∈ Finset.univ.filter (fun e : Fin 500000 => (idx (ix2 e (0 : Fin 1))).toInt = (v.val : Int)), U (ix2 e k) := rfl

/-! ### One row of 128 lanes -/

/-- The divisor of capsule `c` of a row: the capsule's Euclidean norm, or 1e-12 if that is larger. -/
def rowNorm (row : Fin 128 → EReal) (c : Fin 4) : EReal :=
  max (Ideal.sqrt (∑ d : Fin 32, row (lane c d) * row (lane c d))) (Ideal.ofBits .f32 0x2B8CBCCC#32)

/-- A row's entry divided by its capsule's divisor. -/
def rowUnit (row : Fin 128 → EReal) (k : Fin 128) : EReal := Ideal.div (row k) (rowNorm row (cap k))

/-- Two rows combined per capsule: the sum over the capsule's lanes of `unit h · tanh (unit t)`. -/
def rowCombined (h t : Fin 128 → EReal) (c : Fin 4) : EReal :=
  ∑ d : Fin 32, rowUnit h (lane c d) * Ideal.tanh (rowUnit t (lane c d))

/-! ### The per-edge arrays, row by row -/

/-- Edge `e`'s row of a per-edge array. -/
def rowAt (V : SEdge.Idx → EReal) (e : Fin 500000) : Fin 128 → EReal := fun k => V (ix2 e k)

theorem rowAt_apply (V : SEdge.Idx → EReal) (e : Fin 500000) (k : Fin 128) : rowAt V e k = V (ix2 e k) := rfl

/-- Per edge and capsule: the two arrays' rows of the edge combined. -/
def combined (H T : SEdge.Idx → EReal) : SCap.Idx → EReal :=
  fun j => rowCombined (rowAt H ⟨(j 0).val, idx2_lt0 j⟩) (rowAt T ⟨(j 0).val, idx2_lt0 j⟩) ⟨(j 1).val, idx2_lt1 j⟩

theorem combined_apply (H T : SEdge.Idx → EReal) (e : Fin 500000) (c : Fin 4) :
    combined H T (ix2 e c) = rowCombined (rowAt H e) (rowAt T e) c := rfl

/-- THE NEW NODE FEATURES. -/
def newX (x : SNode.Idx → EReal) (W : SCap.Idx → EReal) (iT iA : IVec SCol 32) : SNode.Idx → EReal :=
  addedUp iA (weighted (taken x iT) W)

/-- THE NEW EDGE SCORES. -/
def newEdge (x : SNode.Idx → EReal) (W : SCap.Idx → EReal) (iT iA iS : IVec SCol 32) : SCap.Idx → EReal :=
  combined (taken (newX x W iT iA) iS) (taken x iT)

end Cert.Routing

end
-- ==== Proof.KernelRegion0.lean ====
/-
  The first kernel's body, as arithmetic. A block holds 10000 edges: their four weights `w` (10000 × 4) and their
  target rows `x` (10000 × 128). The body writes the output block in four column strips, one per capsule: strip `q`
  (columns 32 q … 32 q + 31) is the same strip of `x` times column `q` of `w` spread over the strip's 32 lanes. So the
  block it leaves has, at row `r` and lane `d` of capsule `q`, the value `x (r, 32 q + d) · w (r, q)`.
-/
import proofs.«124905_j71279277244617_2_alg».proof.Proof.Gen.KernelIdeal.Frame
import proofs.«124905_j71279277244617_2_alg».proof.Proof.Routing
import Idealize.ShloMosaic.Lib.Pipeline.Value
import Idealize.ShloMosaic.Lib.ValueIdx
import Idealize.ShloMosaic.PureOps.Ideal
import Idealize.ShloMosaic.PureOps.Ideal.Laws

set_option maxRecDepth 65536

noncomputable section

namespace Cert.KernelIdeal.Fold

open Cert.KernelIdeal Cert.KernelIdeal.Gen
open Idealize.ShloMosaic Idealize.ShloMosaic.TcCoe Idealize.SL.Sem Idealize.ShloMosaic.ValueIdx
open Cert.Routing (cap lane lane_val)

/-- ONE STRIP: a 10000 × 32 strip `v` times column `q` of the weights `v0`, the column cut out as a 10000 × 1 slice and
    spread over the 32 lanes, read at row `r`, lane `d`. -/
theorem strip_apply (v0 : Vec Ideal S10000x4 .f32) (v : Vec Ideal S10000x32 .f32) (q : Fin 4)
    (h4 : S10000x4.ShapeCasts S10000x4) (h32 : S10000x32.ShapeCasts S10000x32)
    (hs : S10000x4.Slices ![0, q.val] S10000x1) (hb : S10000x1.Broadcasts S10000x32) (r : Fin 10000) (d : Fin 32) :
    mulf (F := Ideal) (φ := .f32) (shapeCast S10000x32 v h32)
        (broadcastTo S10000x32 (extractStridedSlice S10000x1 ![0, q.val] (shapeCast S10000x4 v0 h4) hs) hb) (ix2 r d)
      = (v (ix2 r d) : EReal) * v0 (ix2 r q) := by
  rw [shapeCast_self, shapeCast_self]
  show (v (ix2 r d) : EReal) * broadcastTo S10000x32 (extractStridedSlice S10000x1 ![0, q.val] v0 hs) hb (ix2 r d) = _
  congr 1
  refine (broadcastTo_apply _ hb (ix2 r d) (ix2 r (0 : Fin 1)) fun a => ?_).trans ?_
  · match a with
    | ⟨0, _⟩ => rfl
    | ⟨1, _⟩ => rfl
  · refine extractStridedSlice_apply ![0, q.val] v0 hs (ix2 r (0 : Fin 1)) (ix2 r q) fun a => ?_
    match a with
    | ⟨0, _⟩ => exact (Nat.zero_add _).symm
    | ⟨1, _⟩ => rfl

/-- The four stores' values: strip `q` of the rows times weight column `q`. -/
theorem pay_cap0 (v0 : Vec Ideal S10000x4 .f32) (v : Vec Ideal S10000x32 .f32) (r : Fin 10000) (d : Fin 32) :
    k0_pay2 v0 v (ix2 r d) = (v (ix2 r d) : EReal) * v0 (ix2 r (0 : Fin 4)) := strip_apply v0 v 0 _ _ _ _ r d
theorem pay_cap1 (v0 : Vec Ideal S10000x4 .f32) (v : Vec Ideal S10000x32 .f32) (r : Fin 10000) (d : Fin 32) :
    k0_pay3 v0 v (ix2 r d) = (v (ix2 r d) : EReal) * v0 (ix2 r (1 : Fin 4)) := strip_apply v0 v 1 _ _ _ _ r d
theorem pay_cap2 (v0 : Vec Ideal S10000x4 .f32) (v : Vec Ideal S10000x32 .f32) (r : Fin 10000) (d : Fin 32) :
    k0_pay4 v0 v (ix2 r d) = (v (ix2 r d) : EReal) * v0 (ix2 r (2 : Fin 4)) := strip_apply v0 v 2 _ _ _ _ r d
theorem pay_cap3 (v0 : Vec Ideal S10000x4 .f32) (v : Vec Ideal S10000x32 .f32) (r : Fin 10000) (d : Fin 32) :
    k0_pay5 v0 v (ix2 r d) = (v (ix2 r d) : EReal) * v0 (ix2 r (3 : Fin 4)) := strip_apply v0 v 3 _ _ _ _ r d

/-- Where the four strips sit in the block: entry `(r, d)` of strip `q` is the block's entry `(r, 32 q + d)`. -/
theorem strip0_idx (r : Fin 10000) (d : Fin 32) : r0_1.idx (ix2 r d) = ix2 r (lane 0 d) := by
  funext a
  refine Fin.ext ?_
  match a with
  | ⟨0, _⟩ => show 0 + 1 * r.val = r.val; omega
  | ⟨1, _⟩ => show 0 + 1 * d.val = (lane 0 d).val; rw [lane_val]; show 0 + 1 * d.val = 0 * 32 + d.val; omega
theorem strip1_idx (r : Fin 10000) (d : Fin 32) : r0_2.idx (ix2 r d) = ix2 r (lane 1 d) := by
  funext a
  refine Fin.ext ?_
  match a with
  | ⟨0, _⟩ => show 0 + 1 * r.val = r.val; omega
  | ⟨1, _⟩ => show 32 + 1 * d.val = (lane 1 d).val; rw [lane_val]; show 32 + 1 * d.val = 1 * 32 + d.val; omega
theorem strip2_idx (r : Fin 10000) (d : Fin 32) : r0_3.idx (ix2 r d) = ix2 r (lane 2 d) := by
  funext a
  refine Fin.ext ?_
  match a with
  | ⟨0, _⟩ => show 0 + 1 * r.val = r.val; omega
  | ⟨1, _⟩ => show 64 + 1 * d.val = (lane 2 d).val; rw [lane_val]; show 64 + 1 * d.val = 2 * 32 + d.val; omega
theorem strip3_idx (r : Fin 10000) (d : Fin 32) : r0_4.idx (ix2 r d) = ix2 r (lane 3 d) := by
  funext a
  refine Fin.ext ?_
  match a with
  | ⟨0, _⟩ => show 0 + 1 * r.val = r.val; omega
  | ⟨1, _⟩ => show 96 + 1 * d.val = (lane 3 d).val; rw [lane_val]; show 96 + 1 * d.val = 3 * 32 + d.val; omega

/-- The whole 10000 × 4 weight block read through its whole rectangle is itself. -/
theorem whole4_idx (r : Fin 10000) (q : Fin 4) : r0_0.idx (ix2 r q) = ix2 r q := by
  funext a
  refine Fin.ext ?_
  match a with
  | ⟨0, _⟩ => show 0 + 1 * r.val = r.val; omega
  | ⟨1, _⟩ => show 0 + 1 * q.val = q.val; omega

/-- An entry of an earlier capsule is to the left of a later capsule's strip. -/
theorem not_mem_strip3 (q : Fin 4) (hq : q.val < 3) (r : Fin 10000) (d : Fin 32) : ix2 r (lane q d) ∉ r0_4.set := by
  rw [Rect.mem_set_unit]
  intro h
  have h1 := h 1
  have hd := d.isLt
  have hl : ((ix2 r (lane q d)) 1 : Nat) = q.val * 32 + d.val := lane_val q d
  have e1 : (![0, 96] : Fin 2 → Nat) 1 = 96 := rfl
  rw [hl, e1] at h1
  omega
theorem not_mem_strip2 (q : Fin 4) (hq : q.val < 2) (r : Fin 10000) (d : Fin 32) : ix2 r (lane q d) ∉ r0_3.set := by
  rw [Rect.mem_set_unit]
  intro h
  have h1 := h 1
  have hd := d.isLt
  have hl : ((ix2 r (lane q d)) 1 : Nat) = q.val * 32 + d.val := lane_val q d
  have e1 : (![0, 64] : Fin 2 → Nat) 1 = 64 := rfl
  rw [hl, e1] at h1
  omega
theorem not_mem_strip1 (q : Fin 4) (hq : q.val < 1) (r : Fin 10000) (d : Fin 32) : ix2 r (lane q d) ∉ r0_2.set := by
  rw [Rect.mem_set_unit]
  intro h
  have h1 := h 1
  have hd := d.isLt
  have hl : ((ix2 r (lane q d)) 1 : Nat) = q.val * 32 + d.val := lane_val q d
  have e1 : (![0, 32] : Fin 2 → Nat) 1 = 32 := rfl
  rw [hl, e1] at h1
  omega

/-- The block the body leaves, read in the strip of the LAST capsule: that strip was stored last, so it is on top. -/
theorem out0_2_cap3 (x0 : Vec Ideal S10000x4 .f32) (x1 : Vec Ideal S10000x128 .f32) (r : Fin 10000) (d : Fin 32) :
    out0_2 x0 x1 (ix2 r (lane 3 d)) = (x1 (ix2 r (lane 3 d)) : EReal) * x0 (ix2 r (3 : Fin 4)) := by
  have he : ix2 r (lane 3 d) = r0_4.emb (ix2 r d) := (strip3_idx r d).symm
  unfold out0_2
  conv_lhs => rw [he]
  refine (View.canon_cons_emb _ _ _ _).trans ?_
  refine (pay_cap3 _ _ r d).trans ?_
  show (x1 (r0_4.idx (ix2 r d)) : EReal) * x0 (r0_0.idx (ix2 r (3 : Fin 4))) = _
  rw [whole4_idx, strip3_idx]

/-- In the strip of capsule 2: past the last capsule's strip, which does not hold the entry. -/
theorem out0_2_cap2 (x0 : Vec Ideal S10000x4 .f32) (x1 : Vec Ideal S10000x128 .f32) (r : Fin 10000) (d : Fin 32) :
    out0_2 x0 x1 (ix2 r (lane 2 d)) = (x1 (ix2 r (lane 2 d)) : EReal) * x0 (ix2 r (2 : Fin 4)) := by
  have hn3 : ix2 r (lane 2 d) ∉ r0_4.set := not_mem_strip3 2 (show (2 : Nat) < 3 by decide) r d
  have he : ix2 r (lane 2 d) = r0_3.emb (ix2 r d) := (strip2_idx r d).symm
  unfold out0_2
  refine (View.canon_cons_of_not_mem _ _ ?_).trans ?_
  · exact hn3
  conv_lhs => rw [he]
  refine (View.canon_cons_emb _ _ _ _).trans ?_
  refine (pay_cap2 _ _ r d).trans ?_
  show (x1 (r0_3.idx (ix2 r d)) : EReal) * x0 (r0_0.idx (ix2 r (2 : Fin 4))) = _
  rw [whole4_idx, strip2_idx]

/-- In the strip of capsule 1: past the strips of capsules 3 and 2. -/
theorem out0_2_cap1 (x0 : Vec Ideal S10000x4 .f32) (x1 : Vec Ideal S10000x128 .f32) (r : Fin 10000) (d : Fin 32) :
    out0_2 x0 x1 (ix2 r (lane 1 d)) = (x1 (ix2 r (lane 1 d)) : EReal) * x0 (ix2 r (1 : Fin 4)) := by
  have hn3 : ix2 r (lane 1 d) ∉ r0_4.set := not_mem_strip3 1 (show (1 : Nat) < 3 by decide) r d
  have hn2 : ix2 r (lane 1 d) ∉ r0_3.set := not_mem_strip2 1 (show (1 : Nat) < 2 by decide) r d
  have he : ix2 r (lane 1 d) = r0_2.emb (ix2 r d) := (strip1_idx r d).symm
  unfold out0_2
  refine (View.canon_cons_of_not_mem _ _ ?_).trans ?_
  · exact hn3
  refine (View.canon_cons_of_not_mem _ _ ?_).trans ?_
  · exact hn2
  conv_lhs => rw [he]
  refine (View.canon_cons_emb _ _ _ _).trans ?_
  refine (pay_cap1 _ _ r d).trans ?_
  show (x1 (r0_2.idx (ix2 r d)) : EReal) * x0 (r0_0.idx (ix2 r (1 : Fin 4))) = _
  rw [whole4_idx, strip1_idx]

/-- In the strip of capsule 0, stored first: past the three later strips. -/
theorem out0_2_cap0 (x0 : Vec Ideal S10000x4 .f32) (x1 : Vec Ideal S10000x128 .f32) (r : Fin 10000) (d : Fin 32) :
    out0_2 x0 x1 (ix2 r (lane 0 d)) = (x1 (ix2 r (lane 0 d)) : EReal) * x0 (ix2 r (0 : Fin 4)) := by
  have hn3 : ix2 r (lane 0 d) ∉ r0_4.set := not_mem_strip3 0 (show (0 : Nat) < 3 by decide) r d
  have hn2 : ix2 r (lane 0 d) ∉ r0_3.set := not_mem_strip2 0 (show (0 : Nat) < 2 by decide) r d
  have hn1 : ix2 r (lane 0 d) ∉ r0_2.set := not_mem_strip1 0 (show (0 : Nat) < 1 by decide) r d
  have he : ix2 r (lane 0 d) = r0_1.emb (ix2 r d) := (strip0_idx r d).symm
  unfold out0_2
  refine (View.canon_cons_of_not_mem _ _ ?_).trans ?_
  · exact hn3
  refine (View.canon_cons_of_not_mem _ _ ?_).trans ?_
  · exact hn2
  refine (View.canon_cons_of_not_mem _ _ ?_).trans ?_
  · exact hn1
  conv_lhs => rw [he]
  refine (View.canon_cons_emb _ _ _ _).trans ?_
  refine (pay_cap0 _ _ r d).trans ?_
  show (x1 (r0_1.idx (ix2 r d)) : EReal) * x0 (r0_0.idx (ix2 r (0 : Fin 4))) = _
  rw [whole4_idx, strip0_idx]

/-- THE BLOCK THE BODY LEAVES, at row `r` and lane `d` of capsule `q`: the row entry times the edge's weight for the
    capsule. -/
theorem out0_2_apply (x0 : Vec Ideal S10000x4 .f32) (x1 : Vec Ideal S10000x128 .f32) (r : Fin 10000) (q : Fin 4) (d : Fin 32) :
    out0_2 x0 x1 (ix2 r (lane q d)) = (x1 (ix2 r (lane q d)) : EReal) * x0 (ix2 r q) :=
  match q with
  | ⟨0, _⟩ => out0_2_cap0 x0 x1 r d
  | ⟨1, _⟩ => out0_2_cap1 x0 x1 r d
  | ⟨2, _⟩ => out0_2_cap2 x0 x1 r d
  | ⟨3, _⟩ => out0_2_cap3 x0 x1 r d

/-! ## From blocks to the array: the scaled rows of all 500000 edges -/

section Array0

variable (V : (c : Dev nD) → (b : Ref sig .tc) → Buf (Elt Ideal) ((c : Thread nD τ).loc b))

/-- The three windows' index maps, decided over the 50 grid points: the weights, the rows and the output move
    together down the edge axis, block `t` of 10000 edges at point `t`, and none moves along the columns. -/
theorem idx_facts0 : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 49 :=
  (by decide +kernel : ∀ t : Fin grid0.N, _)

/-- Every block of 10000 edges is some point's. -/
theorem idx_onto0 : ∀ q : Fin 50, ∃ t : Fin cfg0.N, win0_2.index t = ![q.val, 0] :=
  (by decide +kernel : ∀ q : Fin 50, ∃ t : Fin grid0.N, win0_2.index t = ![q.val, 0])

/-- The edge that row `r` of point `t`'s block is. -/
def edgeOf0 (t : Fin cfg0.N) (r : Fin 10000) : Fin 500000 :=
  ⟨win0_2.index t (0 : Fin 2) * 10000 + r.val, by
    have h := (idx_facts0 t).2.2.2.2.2
    have hr := r.isLt
    omega⟩

/-- Row `r`, column `k` of point `t`'s block of the gathered rows is the array's entry `(edge, k)`. -/
theorem emb0_rows (t : Fin cfg0.N) (r : Fin 10000) (k : Fin 128) :
    ((cfg0.win 1).blk t).view.emb (ix2 r k) = ix2 (edgeOf0 t r) k := by
  obtain ⟨e0, e1, e2, e3, e4, e5⟩ := idx_facts0 t
  funext a
  refine Fin.ext ?_
  match a with
  | ⟨0, _⟩ =>
    show win0_1.index t (0 : Fin 2) * 10000 + 1 * r.val = win0_2.index t (0 : Fin 2) * 10000 + r.val
    omega
  | ⟨1, _⟩ =>
    show win0_1.index t (1 : Fin 2) * 128 + 1 * k.val = k.val
    omega

/-- The same for the output's block. -/
theorem emb0_out (t : Fin cfg0.N) (r : Fin 10000) (k : Fin 128) :
    ((cfg0.win 2).blk t).view.emb (ix2 r k) = ix2 (edgeOf0 t r) k := by
  obtain ⟨e0, e1, e2, e3, e4, e5⟩ := idx_facts0 t
  funext a
  refine Fin.ext ?_
  match a with
  | ⟨0, _⟩ =>
    show win0_2.index t (0 : Fin 2) * 10000 + 1 * r.val = win0_2.index t (0 : Fin 2) * 10000 + r.val
    omega
  | ⟨1, _⟩ =>
    show win0_2.index t (1 : Fin 2) * 128 + 1 * k.val = k.val
    omega

/-- And for the weights' block: row `r`, capsule `q`. -/
theorem emb0_weights (t : Fin cfg0.N) (r : Fin 10000) (q : Fin 4) :
    ((cfg0.win 0).blk t).view.emb (ix2 r q) = ix2 (edgeOf0 t r) q := by
  obtain ⟨e0, e1, e2, e3, e4, e5⟩ := idx_facts0 t
  funext a
  refine Fin.ext ?_
  match a with
  | ⟨0, _⟩ =>
    show win0_0.index t (0 : Fin 2) * 10000 + 1 * r.val = win0_2.index t (0 : Fin 2) * 10000 + r.val
    omega
  | ⟨1, _⟩ =>
    show win0_0.index t (1 : Fin 2) * 4 + 1 * q.val = q.val
    omega

/-- A column is a lane of its capsule. -/
theorem col_split (k : Fin 128) : ∃ (q : Fin 4) (d : Fin 32), k = lane q d :=
  ⟨cap k, ⟨k.val % 32, Nat.mod_lt _ (by decide)⟩, Fin.ext (by
    rw [lane_val, Cert.Routing.cap_val]
    show k.val = k.val / 32 * 32 + k.val % 32
    omega)⟩

/-- WHAT POINT `t` WRITES BACK is block `t` of the rows scaled by the weights, the two arrays as the kernel finds
    them: the gathered rows in `main_v41`, the weights in `main_v34`. -/
theorem flushed0_eq (c : Dev nD) (t : Fin cfg0.N) :
    (dat0 V c).flushed 2 t = ((cfg0.win 2).blk t).view.read (Elt Ideal)
      (Cert.Routing.weighted (V c main_v41) (V c main_v34)) := by
  show (cfg0.win 2).cut (grid0.coords t) ((dat0 V c).after 2 t) = _
  rw [after0_2]
  funext j
  obtain ⟨r, k, rfl⟩ : ∃ (r : Fin 10000) (k : Fin 128), j = ix2 r k := ⟨j 0, j 1, eq_ix2 j⟩
  obtain ⟨q, d, rfl⟩ := col_split k
  show out0_2 (iblk0 V c 0 t) (iblk0 V c 1 t) (ix2 r (lane q d))
    = Cert.Routing.weighted (V c main_v41) (V c main_v34) (((cfg0.win 2).blk t).view.emb (ix2 r (lane q d)))
  refine (out0_2_apply (iblk0 V c 0 t) (iblk0 V c 1 t) r q d).trans ?_
  rw [emb0_out, Cert.Routing.weighted_apply, Cert.Routing.cap_lane]
  congr 1
  · show V c main_v41 (((cfg0.win 1).blk t).view.emb (ix2 r (lane q d))) = _
    rw [emb0_rows]
  · show V c main_v34 (((cfg0.win 0).blk t).view.emb (ix2 r q)) = _
    rw [emb0_weights]

/-- An index of the array is in point `t`'s block iff each coordinate is in the block's range on its axis. -/
theorem mem_blk0 (t : Fin cfg0.N) (i : S500000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v42).slice (win0_2.rect t)).set ↔ _
  rw [View.set_slice_whole, Rect.mem_set_unit]
  exact Iff.rfl

/-- Every entry of the array is in the block of the point its edge's block of 10000 belongs to. -/
theorem cover0 (i : S500000x128.Idx) :
    ∃ t : Fin cfg0.N, (cfg0.win 2).flush t = true ∧ i ∈ ((cfg0.win 2).blk t).view.set := by
  have hi0 : (i 0).val < 500000 := (i 0).isLt
  have hi1 : (i 1).val < 128 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- THE ARRAY THE FIRST KERNEL LEAVES: every edge's gathered row scaled, capsule by capsule, by the edge's weights. -/
theorem final0 (c : Dev nD) :
    (dat0 V c).arrAt 2 cfg0.N = Cert.Routing.weighted (V c main_v41) (V c main_v34) :=
  (dat0 V c).arrAt_eq_of_cover 2 _ (fun t _ => flushed0_eq V c t) cover0

end Array0

end Cert.KernelIdeal.Fold

end
-- ==== Proof.KernelHost1.lean ====
/-
  Between the two kernels. The second stretch of host operations adds the scaled rows up per source node (a
  scatter-add into a zero array at the raw source indices) and takes the row of those sums at each edge's source;
  the second kernel then reads those rows, the target rows the first stretch gathered, and the two lane-to-capsule
  matrices. Here each of those four arrays, as the second kernel finds it, is traced back through the boundary
  contents: across the first kernel an array it only reads is unchanged, its output array is what the first kernel
  leaves, and any other buffer is as the first stretch left it.
-/
import proofs.«124905_j71279277244617_2_alg».proof.Proof.Gen.KernelIdeal.Frame
import proofs.«124905_j71279277244617_2_alg».proof.Proof.Gen.ReferenceIdeal.Read
import proofs.«124905_j71279277244617_2_alg».proof.Proof.KernelHost0
import proofs.«124905_j71279277244617_2_alg».proof.Proof.KernelRegion0
import Idealize.ShloMosaic.Lib.StableHlo.Run
import Idealize.ShloMosaic.Lib.Pipeline.Cells
import Idealize.ShloMosaic.PureOps.Ideal
import Idealize.ShloMosaic.PureOps.Ideal.Laws

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The source-index argument is untouched by the first stretch … -/
theorem W1_src (c : Dev nD) : W1 m ρ c (Proc.devRef .tc main_arg4) = m ((c : Thread nD τ).loc main_arg4) := by
  show StableHlo.after hostOps0 (W0 m ρ c) (Proc.devRef .tc main_arg4) = _
  after_results_simp

/-- … and by the first kernel. -/
theorem W2_src (c : Dev nD) : W2 m ρ c (Proc.devRef .tc main_arg4) = m ((c : Thread nD τ).loc main_arg4) :=
  (W2_of_ne m ρ c main_arg4 (by decide)).trans (W1_src m ρ c)

/-- The first kernel's output array after it: every gathered row scaled by its edge's weights. -/
theorem W2_scaled (c : Dev nD) :
    W2 m ρ c (Proc.devRef .tc main_v42)
      = Cert.Routing.weighted (W1 m ρ c (Proc.devRef .tc main_v41)) (W1 m ρ c (Proc.devRef .tc main_v34)) :=
  (W2_arr m ρ c 2).trans (final0 (V1 m ρ) c)

/-- The gathered target rows are an INPUT of the first kernel: it leaves them as it found them. -/
theorem W2_rows (c : Dev nD) : W2 m ρ c (Proc.devRef .tc main_v41) = W1 m ρ c (Proc.devRef .tc main_v41) :=
  (W2_arr m ρ c 1).trans (((dat0 (V1 m ρ) c).arrAt_in 1 rfl cfg0.N).trans (A_eq0 (V1 m ρ) c 1))

/-- THE SUMS PER SOURCE NODE, as the second stretch leaves them: the scatter-add of the scaled rows into the zero
    array at the raw source column. -/
theorem W3_sums (c : Dev nD) :
    (W3 m ρ c (Proc.devRef .tc main_v45) : (⟨S100000x128, .f32⟩ : BufTy).Contents (Elt Ideal))
      = Host.scatterAdd (F := Ideal) scatter_S100000x128_S500000x1_S500000x128_1_0_0_1
          (broadcastInDim S100000x128 ![] bcast_S_S100000x128 (constant (F := Ideal) S_ .f32 0x00000000#32))
          (Cert.ReferenceIdeal.Read.val_main_v47 (F := Ideal) (m ((c : Thread nD τ).loc main_arg4)))
          (W2 m ρ c (Proc.devRef .tc main_v42)) := by
  show StableHlo.after hostOps1 (W2 m ρ c) (Proc.devRef .tc main_v45) = _
  after_results_simp
  rw [W2_src]
  rfl

/-- THE ROWS OF THOSE SUMS TAKEN AT EACH EDGE'S SOURCE: the row gather at the source column (read signed, a negative
    entry shifted up by the node count). -/
theorem W3_taken (c : Dev nD) :
    (W3 m ρ c (Proc.devRef .tc main_v52) : (⟨S500000x128, .f32⟩ : BufTy).Contents (Elt Ideal))
      = Host.gather gather_S100000x128_S500000x1_S500000x128_1_0_n_n_0_1_1128
          (W3 m ρ c (Proc.devRef .tc main_v45))
          (Cert.ReferenceIdeal.Read.val_main_v54 (F := Ideal) (m ((c : Thread nD τ).loc main_arg4))) := by
  show StableHlo.after hostOps1 (W2 m ρ c) (Proc.devRef .tc main_v52)
    = Host.gather _ (StableHlo.after hostOps1 (W2 m ρ c) (Proc.devRef .tc main_v45)) _
  after_results_simp
  rw [W2_src]
  rfl

/-- The second stretch does not write the gathered target rows … -/
theorem W3_rows (c : Dev nD) : W3 m ρ c (Proc.devRef .tc main_v41) = W1 m ρ c (Proc.devRef .tc main_v41) := by
  refine Eq.trans ?_ (W2_rows m ρ c)
  show StableHlo.after hostOps1 (W2 m ρ c) (Proc.devRef .tc main_v41) = _
  after_results_simp

/-- … nor the two lane-to-capsule matrices, which the first kernel does not touch either. -/
theorem W3_selector (c : Dev nD) : W3 m ρ c (Proc.devRef .tc main_cst) = W1 m ρ c (Proc.devRef .tc main_cst) := by
  refine Eq.trans ?_ (W2_of_ne m ρ c main_cst (by decide))
  show StableHlo.after hostOps1 (W2 m ρ c) (Proc.devRef .tc main_cst) = _
  after_results_simp

theorem W3_selectorT (c : Dev nD) : W3 m ρ c (Proc.devRef .tc main_cst_0) = W1 m ρ c (Proc.devRef .tc main_cst_0) := by
  refine Eq.trans ?_ (W2_of_ne m ρ c main_cst_0 (by decide))
  show StableHlo.after hostOps1 (W2 m ρ c) (Proc.devRef .tc main_cst_0) = _
  after_results_simp

end Cert.KernelIdeal.Fold

end
-- ==== Proof.KernelMatmul.lean ====
/-
  The second kernel's two matrix products, read at an index. Both are plain products of a block by a small constant
  matrix into a zero accumulator: a 10000 × 128 block by a 128 × 4 matrix, and a 10000 × 4 block by a 4 × 128 matrix.
  At the ideal values the entry `(r, c)` of such a product is the sum over the one contracted axis `k` of
  `left (r, k) · right (k, c)`: the contraction index is its one coordinate, the left index takes its row from the
  output and its column from the contraction, the right index its row from the contraction and its column from
  the output.
-/
import proofs.«124905_j71279277244617_2_alg».proof.Proof.Gen.KernelIdeal
import Idealize.ShloMosaic.PureOps.Ideal
import Idealize.ShloMosaic.PureOps.Ideal.Laws
import Idealize.ShloMosaic.Lib.ValueIdx

set_option maxRecDepth 16384

noncomputable section

open scoped BigOperators

namespace Cert.KernelIdeal.Matmul

open Cert.KernelIdeal Cert.KernelIdeal.Gen Idealize.ShloMosaic Idealize.ShloMosaic.ValueIdx

/-! ## Block (10000 × 128) by matrix (128 × 4) -/

/-- The dimension numbers of the product that sums over the 128 lanes. -/
abbrev dLanes : DotDims S10000x128 S128x4 S10000x4 := dot_S10000x128_S128x4_S10000x4_1_0_0_1_n_n

theorem dLanes_lc : (dLanes).lhsContracting = [1] := rfl
theorem dLanes_rc : (dLanes).rhsContracting = [0] := rfl
theorem dLanes_rank : (dLanes).contr.rank = 1 := by rw [DotDims.rank_contr, dLanes_lc]; rfl
theorem dLanes_size : (dLanes).contr.size ⟨0, by rw [dLanes_rank]; exact Nat.one_pos⟩ = 128 := by
  first | rfl | decide

theorem dLanes_lhs (r : Fin 10000) (c : Fin 4) (k : Fin 128) :
    (dLanes).lhsIdx (ix2 r c) ((contrEquiv1 dLanes 128 dLanes_rank dLanes_size).symm k) = ix2 r k := by
  have hb : (0 : Fin 2) ∉ (dLanes).lhsBatch := by decide
  have hn : (0 : Fin 2) ∈ (dLanes).lhsNonContracting := by decide
  funext a
  refine Fin.ext ?_
  match a with
  | ⟨0, _⟩ =>
    show ((dLanes).lhsIdx (ix2 r c) ((contrEquiv1 dLanes 128 dLanes_rank dLanes_size).symm k) (0 : Fin 2)).val = r.val
    unfold DotDims.lhsIdx
    rw [dif_neg hb, dif_pos hn]
    rfl
  | ⟨1, _⟩ =>
    exact (DotDims.lhsIdx_val_of_single (d := dLanes) (cl := (1 : Fin 2)) dLanes_lc _ _).trans
      (contrEquiv1_symm_val dLanes 128 dLanes_rank dLanes_size k)

theorem dLanes_rhs (r : Fin 10000) (c : Fin 4) (k : Fin 128) :
    (dLanes).rhsIdx (ix2 r c) ((contrEquiv1 dLanes 128 dLanes_rank dLanes_size).symm k) = ix2 k c := by
  have hb : (1 : Fin 2) ∉ (dLanes).rhsBatch := by decide
  have hn : (1 : Fin 2) ∈ (dLanes).rhsNonContracting := by decide
  funext a
  refine Fin.ext ?_
  match a with
  | ⟨0, _⟩ =>
    exact (DotDims.rhsIdx_val_of_single (d := dLanes) (cr := (0 : Fin 2)) dLanes_rc _ _).trans
      (contrEquiv1_symm_val dLanes 128 dLanes_rank dLanes_size k)
  | ⟨1, _⟩ =>
    show ((dLanes).rhsIdx (ix2 r c) ((contrEquiv1 dLanes 128 dLanes_rank dLanes_size).symm k) (1 : Fin 2)).val = c.val
    unfold DotDims.rhsIdx
    rw [dif_neg hb, dif_pos hn]
    rfl

/-- THE PRODUCT OVER THE LANES at `(r, c)`: the sum over the 128 lanes `k` of `left (r, k) · right (k, c)`. -/
theorem lanes_apply {φ₁ φ₂ : FTy} (lhs : FVec Ideal S10000x128 φ₁) (rhs : FVec Ideal S128x4 φ₂) (r : Fin 10000) (c : Fin 4) :
    FloatOps.matmul dLanes none lhs rhs (constant S10000x4 .f32 0x00000000#32) (ix2 r c)
      = ∑ k : Fin 128, lhs (ix2 r k) * rhs (ix2 k c) := by
  rw [Ideal.matmul_constant_zero_apply, ← Equiv.sum_comp (contrEquiv1 dLanes 128 dLanes_rank dLanes_size).symm]
  refine Finset.sum_congr rfl fun k _ => ?_
  rw [dLanes_lhs, dLanes_rhs]

/-! ## Block (10000 × 4) by matrix (4 × 128) -/

/-- The dimension numbers of the product that sums over the 4 capsules. -/
abbrev dCaps : DotDims S10000x4 S4x128 S10000x128 := dot_S10000x4_S4x128_S10000x128_1_0_0_1_n_n

theorem dCaps_lc : (dCaps).lhsContracting = [1] := rfl
theorem dCaps_rc : (dCaps).rhsContracting = [0] := rfl
theorem dCaps_rank : (dCaps).contr.rank = 1 := by rw [DotDims.rank_contr, dCaps_lc]; rfl
theorem dCaps_size : (dCaps).contr.size ⟨0, by rw [dCaps_rank]; exact Nat.one_pos⟩ = 4 := by
  first | rfl | decide

theorem dCaps_lhs (r : Fin 10000) (k : Fin 128) (c : Fin 4) :
    (dCaps).lhsIdx (ix2 r k) ((contrEquiv1 dCaps 4 dCaps_rank dCaps_size).symm c) = ix2 r c := by
  have hb : (0 : Fin 2) ∉ (dCaps).lhsBatch := by decide
  have hn : (0 : Fin 2) ∈ (dCaps).lhsNonContracting := by decide
  funext a
  refine Fin.ext ?_
  match a with
  | ⟨0, _⟩ =>
    show ((dCaps).lhsIdx (ix2 r k) ((contrEquiv1 dCaps 4 dCaps_rank dCaps_size).symm c) (0 : Fin 2)).val = r.val
    unfold DotDims.lhsIdx
    rw [dif_neg hb, dif_pos hn]
    rfl
  | ⟨1, _⟩ =>
    exact (DotDims.lhsIdx_val_of_single (d := dCaps) (cl := (1 : Fin 2)) dCaps_lc _ _).trans
      (contrEquiv1_symm_val dCaps 4 dCaps_rank dCaps_size c)

theorem dCaps_rhs (r : Fin 10000) (k : Fin 128) (c : Fin 4) :
    (dCaps).rhsIdx (ix2 r k) ((contrEquiv1 dCaps 4 dCaps_rank dCaps_size).symm c) = ix2 c k := by
  have hb : (1 : Fin 2) ∉ (dCaps).rhsBatch := by decide
  have hn : (1 : Fin 2) ∈ (dCaps).rhsNonContracting := by decide
  funext a
  refine Fin.ext ?_
  match a with
  | ⟨0, _⟩ =>
    exact (DotDims.rhsIdx_val_of_single (d := dCaps) (cr := (0 : Fin 2)) dCaps_rc _ _).trans
      (contrEquiv1_symm_val dCaps 4 dCaps_rank dCaps_size c)
  | ⟨1, _⟩ =>
    show ((dCaps).rhsIdx (ix2 r k) ((contrEquiv1 dCaps 4 dCaps_rank dCaps_size).symm c) (1 : Fin 2)).val = k.val
    unfold DotDims.rhsIdx
    rw [dif_neg hb, dif_pos hn]
    rfl

/-- THE PRODUCT OVER THE CAPSULES at `(r, k)`: the sum over the 4 capsules `c` of `left (r, c) · right (c, k)`. -/
theorem caps_apply {φ₁ φ₂ : FTy} (lhs : FVec Ideal S10000x4 φ₁) (rhs : FVec Ideal S4x128 φ₂) (r : Fin 10000) (k : Fin 128) :
    FloatOps.matmul dCaps none lhs rhs (constant S10000x128 .f32 0x00000000#32) (ix2 r k)
      = ∑ c : Fin 4, lhs (ix2 r c) * rhs (ix2 c k) := by
  rw [Ideal.matmul_constant_zero_apply, ← Equiv.sum_comp (contrEquiv1 dCaps 4 dCaps_rank dCaps_size).symm]
  refine Finset.sum_congr rfl fun c _ => ?_
  rw [dCaps_lhs, dCaps_rhs]

end Cert.KernelIdeal.Matmul

end
-- ==== Proof.KernelRegion1.lean ====
/-
  The second kernel, as arithmetic, and the array it leaves. A block holds 10000 edges: the row `h` of the per-node
  sums taken at each edge's source and the row `t` of the node features taken at its target (both 10000 × 128), and
  the two constant 0/1 matrices marking which lane belongs to which capsule. The body squares a row entry by entry
  and multiplies by the 128 × 4 matrix: that is the sum of squares over each capsule's 32 lanes. It takes the square
  root, the larger of that and 1e-12, and multiplies by the 4 × 128 matrix: that spreads each capsule's divisor over
  the capsule's lanes. It divides the row by that, does the same to the other row, multiplies the first by the
  hyperbolic tangent of the second and multiplies by the 128 × 4 matrix once more: the sum over each capsule's lanes.
  The conversions to and from the 16-bit format around each product are the identity on the ideal values. So the
  block it leaves has, at edge `r` and capsule `c`, the two rows combined as the routing layer prescribes.
-/
import proofs.«124905_j71279277244617_2_alg».proof.Proof.Gen.KernelIdeal.Frame
import proofs.«124905_j71279277244617_2_alg».proof.Proof.Routing
import proofs.«124905_j71279277244617_2_alg».proof.Proof.LibBlockSelector
import proofs.«124905_j71279277244617_2_alg».proof.Proof.KernelMatmul
import Idealize.ShloMosaic.Lib.Pipeline.Value
import Idealize.ShloMosaic.Lib.ValueIdx
import Idealize.ShloMosaic.PureOps.Ideal
import Idealize.ShloMosaic.PureOps.Ideal.Laws

set_option maxRecDepth 65536

noncomputable section

open scoped BigOperators

namespace Cert.KernelIdeal.Fold

open Cert.KernelIdeal Cert.KernelIdeal.Gen
open Idealize.ShloMosaic Idealize.ShloMosaic.TcCoe Idealize.SL.Sem Idealize.ShloMosaic.ValueIdx
open Idealize.ShloMosaic.BlockSelector Cert.KernelIdeal.Matmul
open Cert.Routing (cap lane rowNorm rowUnit rowCombined)

/-! ## The body -/

/-- Row `r` of a block of 10000 rows. -/
def blockRow (v : Vec Ideal S10000x128 .f32) (r : Fin 10000) : Fin 128 → EReal := fun k => v (ix2 r k)

/-- A 128 × 4 block that marks each lane's capsule. -/
def IsSelector (v4 : Vec Ideal S128x4 .f32) : Prop :=
  ∀ (k : Fin 128) (c : Fin 4), (v4 (ix2 k c) : EReal) = if k.val / 32 = c.val then (1 : EReal) else 0
/-- A 4 × 128 block that is its transpose. -/
def IsSelectorT (v6 : Vec Ideal S4x128 .f32) : Prop :=
  ∀ (c : Fin 4) (k : Fin 128), (v6 (ix2 c k) : EReal) = if k.val / 32 = c.val then (1 : EReal) else 0

/-- The body's normalising step on one block of rows: the block divided by its per-capsule divisors spread over the
    lanes (the printed operations in the printed order). -/
def unitTerm (v : Vec Ideal S10000x128 .f32) (v4 : Vec Ideal S128x4 .f32) (v6 : Vec Ideal S4x128 .f32) :
    FVec Ideal S10000x128 .f32 :=
  have v1 : FVec Ideal S10000x128 .f32 := shapeCast S10000x128 v shapeCasts_S10000x128_S10000x128
  have v5 : FVec Ideal S128x4 .bf16 := truncf .bf16 v4 bitsLt_bf16_f32
  have v7 : FVec Ideal S4x128 .bf16 := truncf .bf16 v6 bitsLt_bf16_f32
  have v8 : FVec Ideal S10000x128 .f32 := mulf v1 v1
  have v9 : FVec Ideal S10000x128 .bf16 := truncf .bf16 v8 bitsLt_bf16_f32
  have cst : FVec Ideal S10000x4 .f32 := constant S10000x4 .f32 0x00000000#32
  have v10 : FVec Ideal S10000x4 .f32 := matmul dot_S10000x128_S128x4_S10000x4_1_0_0_1_n_n none v9 v5 cst
  have v11 : FVec Ideal S10000x4 .f32 := sqrt v10
  have cst_7 : Ideal .f32 := Scalar.ofBits .f32 0x2B8CBCCC#32
  have v12 : FVec Ideal S10000x4 .f32 := broadcast S10000x4 cst_7
  have v13 : FVec Ideal S10000x4 .f32 := maximumf v11 v12
  have v14 : FVec Ideal S10000x4 .bf16 := truncf .bf16 v13 bitsLt_bf16_f32
  have cst_8 : FVec Ideal S10000x128 .f32 := constant S10000x128 .f32 0x00000000#32
  have v15 : FVec Ideal S10000x128 .f32 := matmul dot_S10000x4_S4x128_S10000x128_1_0_0_1_n_n none v14 v7 cst_8
  divf v1 v15

/-- The body's value: the product over the lanes of `unit (h) · tanh (unit (t))` with the lane-to-capsule matrix. -/
theorem k1_pay1_eq (v0 v2 : Vec Ideal S10000x128 .f32) (v4 : Vec Ideal S128x4 .f32) (v6 : Vec Ideal S4x128 .f32) :
    k1_pay1 v0 v2 v4 v6
      = matmul dot_S10000x128_S128x4_S10000x4_1_0_0_1_n_n none
          (truncf .bf16 (mulf (unitTerm v0 v4 v6) (tanh (unitTerm v2 v4 v6))) bitsLt_bf16_f32)
          (truncf .bf16 v4 bitsLt_bf16_f32) (constant S10000x4 .f32 0x00000000#32) := rfl

/-- THE SUM OF SQUARES PER CAPSULE: the block squared entry by entry, times the lane-to-capsule matrix, at edge `r`
    and capsule `c` is the sum over the capsule's 32 lanes of the squared entries. -/
theorem normSq_apply (v : Vec Ideal S10000x128 .f32) (v4 : Vec Ideal S128x4 .f32) (hS : IsSelector v4)
    (r : Fin 10000) (c : Fin 4) :
    matmul (F := Ideal) dot_S10000x128_S128x4_S10000x4_1_0_0_1_n_n none
        (truncf .bf16 (mulf (shapeCast S10000x128 v shapeCasts_S10000x128_S10000x128)
          (shapeCast S10000x128 v shapeCasts_S10000x128_S10000x128)) bitsLt_bf16_f32)
        (truncf .bf16 v4 bitsLt_bf16_f32) (constant S10000x4 .f32 0x00000000#32) (ix2 r c)
      = ∑ d : Fin 32, blockRow v r (lane c d) * blockRow v r (lane c d) := by
  refine (lanes_apply _ _ r c).trans ?_
  refine Eq.trans (Finset.sum_congr rfl fun k _ => ?_)
    (sum_mul_selector (K := 128) (C := 4) (D := 32) rfl (fun k => blockRow v r k * blockRow v r k) c)
  rw [shapeCast_self]
  show ((v (ix2 r k) : EReal) * v (ix2 r k)) * v4 (ix2 k c) = _
  rw [hS k c]
  rfl

/-- THE NORMALISED BLOCK at edge `r`, lane `k`: the entry divided by the divisor of the lane's capsule. -/
theorem unitTerm_apply (v : Vec Ideal S10000x128 .f32) (v4 : Vec Ideal S128x4 .f32) (v6 : Vec Ideal S4x128 .f32)
    (hS : IsSelector v4) (hT : IsSelectorT v6) (r : Fin 10000) (k : Fin 128) :
    unitTerm v v4 v6 (ix2 r k) = rowUnit (blockRow v r) k := by
  unfold unitTerm rowUnit
  show Ideal.div (shapeCast S10000x128 v shapeCasts_S10000x128_S10000x128 (ix2 r k)) _ = Ideal.div _ _
  congr 1
  · rw [shapeCast_self]; rfl
  · refine (caps_apply _ _ r k).trans ?_
    refine Eq.trans (Finset.sum_congr rfl fun c _ => ?_)
      (sum_selector_mul (K := 128) (C := 4) (D := 32) rfl (by decide) (fun c => rowNorm (blockRow v r) c) k)
    show (max (Ideal.sqrt (matmul (F := Ideal) dot_S10000x128_S128x4_S10000x4_1_0_0_1_n_n none _ _ _ (ix2 r c)))
        (Ideal.ofBits .f32 0x2B8CBCCC#32) : EReal) * v6 (ix2 c k) = _
    rw [normSq_apply v v4 hS r c, hT c k]
    rfl

/-- THE BLOCK'S VALUE at edge `r`, capsule `c`: the two rows combined. -/
theorem k1_pay1_apply (v0 v2 : Vec Ideal S10000x128 .f32) (v4 : Vec Ideal S128x4 .f32) (v6 : Vec Ideal S4x128 .f32)
    (hS : IsSelector v4) (hT : IsSelectorT v6) (r : Fin 10000) (c : Fin 4) :
    k1_pay1 v0 v2 v4 v6 (ix2 r c) = rowCombined (blockRow v0 r) (blockRow v2 r) c := by
  rw [k1_pay1_eq]
  refine (lanes_apply _ _ r c).trans ?_
  refine Eq.trans (Finset.sum_congr rfl fun k _ => ?_)
    (sum_mul_selector (K := 128) (C := 4) (D := 32) rfl
      (fun k => rowUnit (blockRow v0 r) k * Ideal.tanh (rowUnit (blockRow v2 r) k)) c)
  show ((unitTerm v0 v4 v6 (ix2 r k) : EReal) * Ideal.tanh (unitTerm v2 v4 v6 (ix2 r k))) * v4 (ix2 k c) = _
  rw [unitTerm_apply v0 v4 v6 hS hT r k, unitTerm_apply v2 v4 v6 hS hT r k, hS k c]

/-! ## From blocks to the array: the new score of every edge and capsule -/

section Array1

variable (V : (c : Dev nD) → (b : Ref sig .tc) → Buf (Elt Ideal) ((c : Thread nD τ).loc b))

theorem hz2 : (![0, 0] : Fin 2 → Nat) = fun _ => 0 := funext fun a => by fin_cases a <;> rfl

/-- The five windows' index maps, decided over the 50 grid points: the two row blocks and the output move together
    down the edge axis, block `t` of 10000 edges at point `t`; the two constant matrices are read whole at every
    point. -/
theorem idx_facts1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 49 :=
  (by decide +kernel : ∀ t : Fin grid1.N, _)

/-- Every block of 10000 edges is some point's. -/
theorem idx_onto1 : ∀ q : Fin 50, ∃ t : Fin cfg1.N, win1_4.index t = ![q.val, 0] :=
  (by decide +kernel : ∀ q : Fin 50, ∃ t : Fin grid1.N, win1_4.index t = ![q.val, 0])

/-- The edge that row `r` of point `t`'s block is. -/
def edgeOf1 (t : Fin cfg1.N) (r : Fin 10000) : Fin 500000 :=
  ⟨win1_4.index t (0 : Fin 2) * 10000 + r.val, by
    have h := (idx_facts1 t).2.2.2.2.2.2.2.2.2
    have hr := r.isLt
    omega⟩

theorem emb1_h (t : Fin cfg1.N) (r : Fin 10000) (k : Fin 128) :
    ((cfg1.win 0).blk t).view.emb (ix2 r k) = ix2 (edgeOf1 t r) k := by
  obtain ⟨e0, e1, e2, e3, e4, e5, e6, e7, e8, e9⟩ := idx_facts1 t
  funext a
  refine Fin.ext ?_
  match a with
  | ⟨0, _⟩ =>
    show win1_0.index t (0 : Fin 2) * 10000 + 1 * r.val = win1_4.index t (0 : Fin 2) * 10000 + r.val
    omega
  | ⟨1, _⟩ =>
    show win1_0.index t (1 : Fin 2) * 128 + 1 * k.val = k.val
    omega

theorem emb1_t (t : Fin cfg1.N) (r : Fin 10000) (k : Fin 128) :
    ((cfg1.win 1).blk t).view.emb (ix2 r k) = ix2 (edgeOf1 t r) k := by
  obtain ⟨e0, e1, e2, e3, e4, e5, e6, e7, e8, e9⟩ := idx_facts1 t
  funext a
  refine Fin.ext ?_
  match a with
  | ⟨0, _⟩ =>
    show win1_1.index t (0 : Fin 2) * 10000 + 1 * r.val = win1_4.index t (0 : Fin 2) * 10000 + r.val
    omega
  | ⟨1, _⟩ =>
    show win1_1.index t (1 : Fin 2) * 128 + 1 * k.val = k.val
    omega

theorem emb1_sel (t : Fin cfg1.N) (k : Fin 128) (q : Fin 4) :
    ((cfg1.win 2).blk t).view.emb (ix2 k q) = ix2 k q := by
  obtain ⟨e0, e1, e2, e3, e4, e5, e6, e7, e8, e9⟩ := idx_facts1 t
  funext a
  refine Fin.ext ?_
  match a with
  | ⟨0, _⟩ =>
    show win1_2.index t (0 : Fin 2) * 128 + 1 * k.val = k.val
    omega
  | ⟨1, _⟩ =>
    show win1_2.index t (1 : Fin 2) * 4 + 1 * q.val = q.val
    omega

theorem emb1_selT (t : Fin cfg1.N) (q : Fin 4) (k : Fin 128) :
    ((cfg1.win 3).blk t).view.emb (ix2 q k) = ix2 q k := by
  obtain ⟨e0, e1, e2, e3, e4, e5, e6, e7, e8, e9⟩ := idx_facts1 t
  funext a
  refine Fin.ext ?_
  match a with
  | ⟨0, _⟩ =>
    show win1_3.index t (0 : Fin 2) * 4 + 1 * q.val = q.val
    omega
  | ⟨1, _⟩ =>
    show win1_3.index t (1 : Fin 2) * 128 + 1 * k.val = k.val
    omega

theorem emb1_out (t : Fin cfg1.N) (r : Fin 10000) (q : Fin 4) :
    ((cfg1.win 4).blk t).view.emb (ix2 r q) = ix2 (edgeOf1 t r) q := by
  obtain ⟨e0, e1, e2, e3, e4, e5, e6, e7, e8, e9⟩ := idx_facts1 t
  funext a
  refine Fin.ext ?_
  match a with
  | ⟨0, _⟩ =>
    show win1_4.index t (0 : Fin 2) * 10000 + 1 * r.val = win1_4.index t (0 : Fin 2) * 10000 + r.val
    omega
  | ⟨1, _⟩ =>
    show win1_4.index t (1 : Fin 2) * 4 + 1 * q.val = q.val
    omega

/-- WHAT POINT `t` WRITES BACK is block `t` of the two per-edge arrays combined, provided the two constant arrays the
    kernel finds are the lane-to-capsule matrix and its transpose. -/
theorem flushed1_eq (c : Dev nD) (t : Fin cfg1.N)
    (hSel : ∀ (k : Fin 128) (q : Fin 4), (V c main_cst (ix2 k q) : EReal) = if k.val / 32 = q.val then (1 : EReal) else 0)
    (hSelT : ∀ (q : Fin 4) (k : Fin 128), (V c main_cst_0 (ix2 q k) : EReal) = if k.val / 32 = q.val then (1 : EReal) else 0) :
    (dat1 V c).flushed 4 t = ((cfg1.win 4).blk t).view.read (Elt Ideal)
      (Cert.Routing.combined (V c main_v52) (V c main_v41)) := by
  show (cfg1.win 4).cut (grid1.coords t) ((dat1 V c).after 4 t) = _
  rw [after1_4]
  unfold out1_4
  rw [View.canon_unit_zero hz2]
  simp only [View.ld_unit_zero (S := S10000x128) hz2, View.ld_unit_zero (S := S128x4) hz2, View.ld_unit_zero (S := S4x128) hz2]
  funext j
  obtain ⟨r, q, rfl⟩ : ∃ (r : Fin 10000) (q : Fin 4), j = ix2 r q := ⟨j 0, j 1, eq_ix2 j⟩
  show k1_pay1 (iblk1 V c 0 t) (iblk1 V c 1 t) (iblk1 V c 2 t) (iblk1 V c 3 t) (ix2 r q)
    = Cert.Routing.combined (V c main_v52) (V c main_v41) (((cfg1.win 4).blk t).view.emb (ix2 r q))
  refine (k1_pay1_apply (iblk1 V c 0 t) (iblk1 V c 1 t) (iblk1 V c 2 t) (iblk1 V c 3 t) ?_ ?_ r q).trans ?_
  · intro k q'
    show (V c main_cst (((cfg1.win 2).blk t).view.emb (ix2 k q')) : EReal) = _
    rw [emb1_sel]
    exact hSel k q'
  · intro q' k
    show (V c main_cst_0 (((cfg1.win 3).blk t).view.emb (ix2 q' k)) : EReal) = _
    rw [emb1_selT]
    exact hSelT q' k
  rw [emb1_out, Cert.Routing.combined_apply]
  congr 1
  · funext k
    show V c main_v52 (((cfg1.win 0).blk t).view.emb (ix2 r k)) = _
    rw [emb1_h]
    rfl
  · funext k
    show V c main_v41 (((cfg1.win 1).blk t).view.emb (ix2 r k)) = _
    rw [emb1_t]
    rfl

/-- An index of the array is in point `t`'s block iff each coordinate is in the block's range on its axis. -/
theorem mem_blk1 (t : Fin cfg1.N) (i : S500000x4.Idx) :
    i ∈ ((cfg1.win 4).blk t).view.set ↔ ∀ a : Fin 2, win1_4.index t a * S10000x4.size a ≤ (i a).val
      ∧ (i a).val < win1_4.index t a * S10000x4.size a + S10000x4.size a := by
  show i ∈ ((View.whole main_v53).slice (win1_4.rect t)).set ↔ _
  rw [View.set_slice_whole, Rect.mem_set_unit]
  exact Iff.rfl

/-- Every entry of the array is in the block of the point its edge's block of 10000 belongs to. -/
theorem cover1 (i : S500000x4.Idx) :
    ∃ t : Fin cfg1.N, (cfg1.win 4).flush t = true ∧ i ∈ ((cfg1.win 4).blk t).view.set := by
  have hi0 : (i 0).val < 500000 := (i 0).isLt
  have hi1 : (i 1).val < 4 := (i 1).isLt
  obtain ⟨t, ht⟩ := idx_onto1 ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk1]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 4 ≤ (i 1).val ∧ (i 1).val < win1_4.index t (1 : Fin 2) * 4 + 4
    omega

/-- THE ARRAY THE SECOND KERNEL LEAVES: for every edge and capsule, the edge's two rows combined. -/
theorem final1 (c : Dev nD)
    (hSel : ∀ (k : Fin 128) (q : Fin 4), (V c main_cst (ix2 k q) : EReal) = if k.val / 32 = q.val then (1 : EReal) else 0)
    (hSelT : ∀ (q : Fin 4) (k : Fin 128), (V c main_cst_0 (ix2 q k) : EReal) = if k.val / 32 = q.val then (1 : EReal) else 0) :
    (dat1 V c).arrAt 4 cfg1.N = Cert.Routing.combined (V c main_v52) (V c main_v41) :=
  (dat1 V c).arrAt_eq_of_cover 4 _ (fun t _ => flushed1_eq V c t hSel hSelT) cover1

end Array1

end Cert.KernelIdeal.Fold

end
-- ==== Proof.SelectorTables.lean ====
/-
  The two constant matrices of the second kernel, read at an index. The 128 × 4 matrix has a one at (k, c) exactly
  when lane k belongs to capsule c, that is when k / 32 = c, and zeros elsewhere; the 4 × 128 matrix is its transpose.
  Both are printed as 512 binary32 words in row-major order: the word at each position is decided once over all 512
  positions, the position of (k, c) is 4 k + c (of (c, k): 128 c + k), and the two words denote the numbers 1 and 0.
-/
import proofs.«124905_j71279277244617_2_alg».proof.KernelIdeal
import Idealize.ShloMosaic.PureOps.Ideal
import Idealize.ShloMosaic.PureOps.Ideal.Laws
import Idealize.ShloMosaic.Lib.ValueIdx

set_option maxRecDepth 16384

noncomputable section

namespace Cert.KernelIdeal.Selector

open Cert.KernelIdeal Idealize.ShloMosaic Idealize.ShloMosaic.ValueIdx

/-- The binary32 word `0x3F800000` is the number one: sign clear, exponent field 127, fraction 0. -/
theorem ofBits_one : Ideal.ofBits .f32 0x3F800000#32 = (1 : EReal) := by
  simp [Ideal.ofBits, Ideal.ieee]
  rw [← EReal.coe_mul]
  norm_num

/-- The words of the 128 × 4 matrix: position `j = 4 k + c` holds the word of one when `k / 32 = c`, else of zero. -/
theorem lit0_word : ∀ j : Fin 512, lit0 j = if (j.val / 4) / 32 = j.val % 4 then 0x3F800000#32 else 0x00000000#32 := by
  decide +kernel

/-- The words of the 4 × 128 matrix: position `j = 128 c + k` holds the word of one when `k / 32 = c`, else of zero. -/
theorem lit1_word : ∀ j : Fin 512, lit1 j = if (j.val % 128) / 32 = j.val / 128 then 0x3F800000#32 else 0x00000000#32 := by
  decide +kernel

/-- THE LANE-TO-CAPSULE MATRIX AT `(k, c)`: one if lane `k` is in capsule `c`, else zero. -/
theorem selector_apply (k : Fin 128) (c : Fin 4) :
    FloatOps.ofBits (F := Ideal) .f32 (lit0 (S128x4.rowMajor (ix2 k c))) = if k.val / 32 = c.val then (1 : EReal) else 0 := by
  have hv : (S128x4.rowMajor (ix2 k c)).val = k.val * 4 + c.val := Shape.rowMajor_val_two (ix2 k c)
  have hk := k.isLt
  have hc := c.isLt
  have hw := lit0_word (S128x4.rowMajor (ix2 k c))
  have h1 : (k.val * 4 + c.val) / 4 = k.val := by omega
  have h2 : (k.val * 4 + c.val) % 4 = c.val := by omega
  rw [hv, h1, h2] at hw
  rw [Ideal.ofBits_def, hw]
  split
  · exact ofBits_one
  · exact Ideal.ofBits_zero_f32

/-- ITS TRANSPOSE AT `(c, k)`: the same. -/
theorem selectorT_apply (c : Fin 4) (k : Fin 128) :
    FloatOps.ofBits (F := Ideal) .f32 (lit1 (S4x128.rowMajor (ix2 c k))) = if k.val / 32 = c.val then (1 : EReal) else 0 := by
  have hv : (S4x128.rowMajor (ix2 c k)).val = c.val * 128 + k.val := Shape.rowMajor_val_two (ix2 c k)
  have hk := k.isLt
  have hc := c.isLt
  have hw := lit1_word (S4x128.rowMajor (ix2 c k))
  have h1 : (c.val * 128 + k.val) % 128 = k.val := by omega
  have h2 : (c.val * 128 + k.val) / 128 = c.val := by omega
  rw [hv, h1, h2] at hw
  rw [Ideal.ofBits_def, hw]
  split
  · exact ofBits_one
  · exact Ideal.ofBits_zero_f32

end Cert.KernelIdeal.Selector

end
-- ==== Proof.LibRowGatherScatter.lean ====
/-
  Rows taken and rows added: StableHLO's `gather` and accumulating float `scatter` for the dimension numbers
  that take whole rows of a matrix (or single entries of a vector) at a column of integer indices, read at one
  index, for arbitrary sizes. `N` is the number of rows of the operand, `M` the number of index entries and `C`
  the number of columns. The gather reads the operand's row at the index entry, read as a signed integer and
  clamped into `[0, N - 1]`; the scatter adds to row `v` every update row whose index entry, read as a signed
  integer and NOT clamped, equals `v` (an entry outside `[0, N - 1]` is dropped). Last, the one distributive law
  of the extended reals such a sum needs: multiplying a finite sum by a nonnegative real on the right.
-/
import Idealize.ShloMosaic.PureOps.Ideal
import Idealize.ShloMosaic.PureOps.Ideal.Laws
import Idealize.ShloMosaic.Lib.ValueIdx

noncomputable section

open scoped BigOperators

namespace Idealize.ShloMosaic.RowOps

open Idealize.ShloMosaic Idealize.ShloMosaic.ValueIdx

/-! ## `stablehlo.gather` taking rows of a matrix -/

section GatherRows
variable {α : Type}

/-- The dimension numbers of "take rows": operand `[N, C]`, start indices `[M, 1]`, result `[M, C]`; the result's
    axis 1 is the offset axis (a whole row of `C` entries is the slice), the operand's axis 0 is collapsed and is
    the one the start index addresses. The conditions `wf` are decided on a program's literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the operand's row number `idx[e, 0]`, the index read as a signed
    integer and clamped into `[0, N - 1]`. -/
theorem gather_row_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (k : Fin C) :
    Host.gather (rowGatherDims N M C wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    show (rowGatherDims N M C wf).start (ix2 e k) idx 0 + (rowGatherDims N M C wf).batchCoord (ix2 e k) 0
      + (rowGatherDims N M C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e k) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e k) idx 1 + (rowGatherDims N M C wf).batchCoord (ix2 e k) 1
      + (rowGatherDims N M C wf).offCoord (ix2 e k) 1 = k.val
    rw [GatherDims.batchCoord_eq_zero _ _ _ List.not_mem_nil]
    unfold GatherDims.start
    rw [dif_neg (show (1 : Fin 2) ∉ (rowGatherDims N M C wf).startIndexMap from
      (by decide : (1 : Fin 2) ∉ ([0] : List (Fin 2))))]
    simp only [Nat.add_zero, Nat.zero_add]
    unfold GatherDims.offCoord
    rw [dif_pos (show (1 : Fin 2) ∈ (rowGatherDims N M C wf).sKept from
      (GatherDims.mem_sKept _ _).mpr ⟨(by decide : (1 : Fin 2) ∉ ([0] : List (Fin 2))), List.not_mem_nil⟩)]
    rfl

end GatherRows

/-! ## The accumulating float `stablehlo.scatter` adding rows to a matrix -/

section ScatterRows

/-- The dimension numbers of "add rows": operand `[N, C]`, scatter indices `[M, 1]`, updates `[M, C]`; the
    updates' axis 1 is the window axis (a whole row of `C` entries is the window), the operand's axis 0 is the
    inserted window axis and is the one the scatter index addresses. The conditions `wf` are decided on a
    program's literal shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C w : Nat} (wf : ScatterDims.WF ⟨2, ![N, C]⟩ ⟨2, ![M, 1]⟩ ⟨2, ![M, C]⟩ [1] [0] [0] 1)

/-- On the row axis the window of update `(e, k')` starts at the scatter index `idx[e, 0]`, read as a signed
    integer. -/
theorem rowScatter_start0 (idx : IVec ⟨2, ![M, 1]⟩ w) (e : Fin M) (k' : Fin C) :
    (rowScatterDims N M C wf).start (ix2 e k') idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e k')
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter index does not address it. -/
theorem rowScatter_start1 (idx : IVec ⟨2, ![M, 1]⟩ w) (e : Fin M) (k' : Fin C) :
    (rowScatterDims N M C wf).start (ix2 e k') idx 1 = 0 := by
  unfold ScatterDims.start
  rw [dif_neg (show (1 : Fin 2) ∉ (rowScatterDims N M C wf).scatterDimsToOperandDims from
    (by decide : (1 : Fin 2) ∉ ([0] : List (Fin 2))))]

/-- The row axis is inserted: the window coordinate there is `0`. -/
theorem rowScatter_window0 (e : Fin M) (k' : Fin C) : (rowScatterDims N M C wf).window (ix2 e k') 0 = 0 := by
  unfold ScatterDims.window
  rw [dif_neg]
  intro h
  have h' : (0 : Fin 2) ∈ (List.finRange 2).filter (fun a => a ∉ ([0] : List (Fin 2))) := h
  exact absurd h' (by decide)

/-- On the column axis the window coordinate of update `(e, k')` is its column `k'`. -/
theorem rowScatter_window1 (e : Fin M) (k' : Fin C) : (rowScatterDims N M C wf).window (ix2 e k') 1 = k'.val := by
  unfold ScatterDims.window
  rw [dif_pos (show (1 : Fin 2) ∈ (rowScatterDims N M C wf).sKept from
    (by decide : (1 : Fin 2) ∈ (List.finRange 2).filter (fun a => a ∉ ([0] : List (Fin 2)))))]
  rfl

/-- WHERE AN UPDATE LANDS: update `(e, k')` lands at operand element `(v, k)` exactly when its scatter index
    `idx[e, 0]`, read as a signed integer (not clamped), is `v` and its column is `k`. -/
theorem rowScatter_resultIdx_eq_some (idx : IVec ⟨2, ![M, 1]⟩ w) (e : Fin M) (k' k : Fin C) (v : Fin N) :
    (rowScatterDims N M C wf).resultIdx? (ix2 e k') idx = some (ix2 v k)
      ↔ (idx (ix2 e (0 : Fin 1))).toInt = (v.val : Int) ∧ k' = k := by
  have hv : (v.val : Int) < (N : Int) := by exact_mod_cast v.isLt
  have hk : (k'.val : Int) < (C : Int) := by exact_mod_cast k'.isLt
  unfold ScatterDims.resultIdx?
  constructor
  · intro h
    split at h
    · rename_i hin
      have hf := Option.some.inj h
      have h0 := congrArg Fin.val (congrFun hf 0)
      have h1 := congrArg Fin.val (congrFun hf 1)
      have hin0 := (hin 0).1
      simp only [rowScatter_start0, rowScatter_start1, rowScatter_window0, rowScatter_window1] at h0 h1 hin0
      refine ⟨?_, Fin.ext ?_⟩
      · change ((idx (ix2 e (0 : Fin 1))).toInt + ((0 : Nat) : Int)).toNat = v.val at h0
        omega
      · change ((0 : Int) + (k'.val : Int)).toNat = k.val at h1
        omega
    · exact absurd h (by simp)
  · rintro ⟨hi, rfl⟩
    have hin : ∀ a, 0 ≤ (rowScatterDims N M C wf).start (ix2 e k') idx a + (rowScatterDims N M C wf).window (ix2 e k') a ∧
        (rowScatterDims N M C wf).start (ix2 e k') idx a + (rowScatterDims N M C wf).window (ix2 e k') a
          < (⟨2, ![N, C]⟩ : Shape).size a := by
      intro a
      match a with
      | ⟨0, _⟩ =>
        show 0 ≤ (rowScatterDims N M C wf).start (ix2 e k') idx 0 + (rowScatterDims N M C wf).window (ix2 e k') 0 ∧
          (rowScatterDims N M C wf).start (ix2 e k') idx 0 + (rowScatterDims N M C wf).window (ix2 e k') 0 < (N : Int)
        rw [rowScatter_start0, rowScatter_window0, hi]
        constructor <;> omega
      | ⟨1, _⟩ =>
        show 0 ≤ (rowScatterDims N M C wf).start (ix2 e k') idx 1 + (rowScatterDims N M C wf).window (ix2 e k') 1 ∧
          (rowScatterDims N M C wf).start (ix2 e k') idx 1 + (rowScatterDims N M C wf).window (ix2 e k') 1 < (C : Int)
        rw [rowScatter_start1, rowScatter_window1]
        constructor <;> omega
    rw [dif_pos hin]
    congr 1
    funext a
    refine Fin.ext ?_
    match a with
    | ⟨0, _⟩ =>
      show ((rowScatterDims N M C wf).start (ix2 e k') idx 0 + (rowScatterDims N M C wf).window (ix2 e k') 0).toNat = v.val
      rw [rowScatter_start0, rowScatter_window0, hi]
      omega
    | ⟨1, _⟩ =>
      show ((rowScatterDims N M C wf).start (ix2 e k') idx 1 + (rowScatterDims N M C wf).window (ix2 e k') 1).toNat = k'.val
      rw [rowScatter_start1, rowScatter_window1]
      omega

end ScatterRows

section ScatterRowsSum
variable {N M C w : Nat} (wf : ScatterDims.WF ⟨2, ![N, C]⟩ ⟨2, ![M, 1]⟩ ⟨2, ![M, C]⟩ [1] [0] [0] 1)

/-- THE ROW SCATTER-ADD READ AT `(v, k)`, at the ideal values: the operand's element plus the sum, over the index
    entries `e` whose scatter index `idx[e, 0]` (read as a signed integer, not clamped) is `v`, of entry `k` of
    update row `e`. The updates landing at `(v, k)` are exactly the `(e, k)` with `idx[e, 0] = v`
    (`rowScatter_resultIdx_eq_some`), and `e ↦ (e, k)` re-indexes the sum. -/
theorem scatterAdd_row_apply (x : (⟨2, ![N, C]⟩ : Shape).Idx → EReal) (idx : IVec ⟨2, ![M, 1]⟩ w)
    (upd : (⟨2, ![M, C]⟩ : Shape).Idx → EReal) (v : Fin N) (k : Fin C) :
    Ideal.hostScatterAdd (rowScatterDims N M C wf) x idx upd (ix2 v k)
      = x (ix2 v k) + ∑ e ∈ Finset.univ.filter (fun e : Fin M => (idx (ix2 e (0 : Fin 1))).toInt = (v.val : Int)),
          upd (ix2 e k) := by
  unfold Ideal.hostScatterAdd
  congr 1
  refine Finset.sum_nbij' (fun j => (⟨(j 0).val, idx2_lt0 j⟩ : Fin M)) (fun e => ix2 e k) ?_ ?_ ?_ ?_ ?_
  · intro j hj
    obtain ⟨a, b, rfl⟩ : ∃ (a : Fin M) (b : Fin C), j = ix2 a b := ⟨_, _, eq_ix2 j⟩
    rw [Finset.mem_filter] at hj ⊢
    exact ⟨Finset.mem_univ _, ((rowScatter_resultIdx_eq_some wf idx a b k v).mp hj.2).1⟩
  · intro e he
    rw [Finset.mem_filter] at he ⊢
    exact ⟨Finset.mem_univ _, (rowScatter_resultIdx_eq_some wf idx e k k v).mpr ⟨he.2, rfl⟩⟩
  · intro j hj
    obtain ⟨a, b, rfl⟩ : ∃ (a : Fin M) (b : Fin C), j = ix2 a b := ⟨_, _, eq_ix2 j⟩
    rw [Finset.mem_filter] at hj
    obtain ⟨_, rfl⟩ := (rowScatter_resultIdx_eq_some wf idx a b k v).mp hj.2
    rfl
  · intro e _
    rfl
  · intro j hj
    obtain ⟨a, b, rfl⟩ : ∃ (a : Fin M) (b : Fin C), j = ix2 a b := ⟨_, _, eq_ix2 j⟩
    rw [Finset.mem_filter] at hj
    obtain ⟨_, rfl⟩ := (rowScatter_resultIdx_eq_some wf idx a b k v).mp hj.2
    rfl

/-- The same through the program's operation: `Host.scatterAdd` at the ideal values is `Ideal.hostScatterAdd`. -/
theorem host_scatterAdd_row_apply {φ : FTy} (x : FVec Ideal ⟨2, ![N, C]⟩ φ) (idx : IVec ⟨2, ![M, 1]⟩ w)
    (upd : FVec Ideal ⟨2, ![M, C]⟩ φ) (v : Fin N) (k : Fin C) :
    Host.scatterAdd (F := Ideal) (rowScatterDims N M C wf) x idx upd (ix2 v k)
      = x (ix2 v k) + ∑ e ∈ Finset.univ.filter (fun e : Fin M => (idx (ix2 e (0 : Fin 1))).toInt = (v.val : Int)),
          upd (ix2 e k) :=
  scatterAdd_row_apply wf x idx upd v k

end ScatterRowsSum

/-! ## Multiplying a finite sum of extended reals by a nonnegative real -/

section Distrib

/-- On the extended reals multiplication does not distribute over addition in general (`⊤ + ⊥ = ⊥`), but it does
    for a factor that is a NONNEGATIVE REAL: `(x + y) * δ = x * δ + y * δ`. Hence a finite sum of products times
    such a `δ` is the sum of the products with `δ` moved onto the second factor (multiplication itself is
    associative everywhere). -/
theorem sum_mul_mul_coe_of_nonneg {ι : Type*} (s : Finset ι) (a p : ι → EReal) {δ : ℝ} (hδ : 0 ≤ δ) :
    (∑ e ∈ s, a e * p e) * (δ : EReal) = ∑ e ∈ s, a e * (p e * (δ : EReal)) := by
  classical
  induction s using Finset.induction_on with
  | empty => simp
  | insert i s hi ih =>
    rw [Finset.sum_insert hi, Finset.sum_insert hi, ← ih, ← mul_assoc]
    exact EReal.right_distrib_of_nonneg_of_ne_top (EReal.coe_nonneg.mpr hδ) (EReal.coe_ne_top δ) _ _

end Distrib

/-! ## `stablehlo.gather` taking entries of a vector -/

section GatherEntries
variable {α : Type}

/-- The dimension numbers of "take entries": operand `[N]`, start indices `[M, 1]`, result `[M]`; no offset axis
    (the slice is one entry), the operand's one axis is collapsed and is the one the start index addresses. The
    conditions `wf` are decided on a program's literal shapes. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand's entry number `idx[e, 0]`, the index read as a signed integer and
    clamped into `[0, N - 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
    + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end GatherEntries

/-! ## The accumulating float `stablehlo.scatter` adding entries to a vector -/

section ScatterEntries

/-- The dimension numbers of "add entries": operand `[N]`, scatter indices `[M, 1]`, updates `[M]`; no window axis
    (the window is one entry), the operand's one axis is the inserted window axis and is the one the scatter index
    addresses. The conditions `wf` are decided on a program's literal shapes. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- The window of update `e` starts at the scatter index `idx[e, 0]`, read as a signed integer. -/
theorem vecScatter_start0 (idx : IVec ⟨2, ![M, 1]⟩ w) (e : Fin M) :
    (vecScatterDims N M wf).start (ix1 e) idx 0 = (idx (ix2 e (0 : Fin 1))).toInt := by
  unfold ScatterDims.start
  rw [dif_pos (show (0 : Fin 1) ∈ (vecScatterDims N M wf).scatterDimsToOperandDims from List.mem_singleton.mpr rfl)]
  have hsi : (vecScatterDims N M wf).siIdx (ix1 e)
      ⟨List.idxOf (0 : Fin 1) (vecScatterDims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate there is `0`. -/
theorem vecScatter_window0 (e : Fin M) : (vecScatterDims N M wf).window (ix1 e) 0 = 0 := by
  unfold ScatterDims.window
  rw [dif_neg]
  intro h
  have h' : (0 : Fin 1) ∈ (List.finRange 1).filter (fun a => a ∉ ([0] : List (Fin 1))) := h
  exact absurd h' (by decide)

/-- WHERE AN UPDATE LANDS: update `e` lands at operand entry `v` exactly when its scatter index `idx[e, 0]`, read
    as a signed integer (not clamped), is `v`. -/
theorem vecScatter_resultIdx_eq_some (idx : IVec ⟨2, ![M, 1]⟩ w) (e : Fin M) (v : Fin N) :
    (vecScatterDims N M wf).resultIdx? (ix1 e) idx = some (ix1 v)
      ↔ (idx (ix2 e (0 : Fin 1))).toInt = (v.val : Int) := by
  have hv : (v.val : Int) < (N : Int) := by exact_mod_cast v.isLt
  unfold ScatterDims.resultIdx?
  constructor
  · intro h
    split at h
    · rename_i hin
      have hf := Option.some.inj h
      have h0 := congrArg Fin.val (congrFun hf 0)
      have hin0 := (hin 0).1
      simp only [vecScatter_start0, vecScatter_window0] at h0 hin0
      change ((idx (ix2 e (0 : Fin 1))).toInt + ((0 : Nat) : Int)).toNat = v.val at h0
      omega
    · exact absurd h (by simp)
  · intro hi
    have hin : ∀ a, 0 ≤ (vecScatterDims N M wf).start (ix1 e) idx a + (vecScatterDims N M wf).window (ix1 e) a ∧
        (vecScatterDims N M wf).start (ix1 e) idx a + (vecScatterDims N M wf).window (ix1 e) a
          < (⟨1, ![N]⟩ : Shape).size a := by
      intro a
      obtain rfl : a = 0 := Subsingleton.elim _ _
      show 0 ≤ (vecScatterDims N M wf).start (ix1 e) idx 0 + (vecScatterDims N M wf).window (ix1 e) 0 ∧
        (vecScatterDims N M wf).start (ix1 e) idx 0 + (vecScatterDims N M wf).window (ix1 e) 0 < (N : Int)
      rw [vecScatter_start0, vecScatter_window0, hi]
      constructor <;> omega
    rw [dif_pos hin]
    congr 1
    funext a
    obtain rfl : a = 0 := Subsingleton.elim _ _
    refine Fin.ext ?_
    show ((vecScatterDims N M wf).start (ix1 e) idx 0 + (vecScatterDims N M wf).window (ix1 e) 0).toNat = v.val
    rw [vecScatter_start0, vecScatter_window0, hi]
    omega

/-- THE ENTRY SCATTER-ADD READ AT `v`, at the ideal values: the operand's entry plus the sum of the updates `e`
    whose scatter index `idx[e, 0]` (read as a signed integer, not clamped) is `v`. -/
theorem scatterAdd_vec_apply (x : (⟨1, ![N]⟩ : Shape).Idx → EReal) (idx : IVec ⟨2, ![M, 1]⟩ w)
    (upd : (⟨1, ![M]⟩ : Shape).Idx → EReal) (v : Fin N) :
    Ideal.hostScatterAdd (vecScatterDims N M wf) x idx upd (ix1 v)
      = x (ix1 v) + ∑ e ∈ Finset.univ.filter (fun e : Fin M => (idx (ix2 e (0 : Fin 1))).toInt = (v.val : Int)),
          upd (ix1 e) := by
  unfold Ideal.hostScatterAdd
  congr 1
  refine Finset.sum_nbij' (fun j => (⟨(j 0).val, (j 0).isLt⟩ : Fin M)) (fun e => ix1 e) ?_ ?_ ?_ ?_ ?_
  · intro j hj
    obtain ⟨a, rfl⟩ : ∃ (a : Fin M), j = ix1 a := ⟨_, eq_ix1 j⟩
    rw [Finset.mem_filter] at hj ⊢
    exact ⟨Finset.mem_univ _, (vecScatter_resultIdx_eq_some wf idx a v).mp hj.2⟩
  · intro e he
    rw [Finset.mem_filter] at he ⊢
    exact ⟨Finset.mem_univ _, (vecScatter_resultIdx_eq_some wf idx e v).mpr he.2⟩
  · intro j _
    obtain ⟨a, rfl⟩ : ∃ (a : Fin M), j = ix1 a := ⟨_, eq_ix1 j⟩
    rfl
  · intro e _
    rfl
  · intro j _
    obtain ⟨a, rfl⟩ : ∃ (a : Fin M), j = ix1 a := ⟨_, eq_ix1 j⟩
    rfl

/-- The same through the program's operation: `Host.scatterAdd` at the ideal values is `Ideal.hostScatterAdd`. -/
theorem host_scatterAdd_vec_apply {φ : FTy} (x : FVec Ideal ⟨1, ![N]⟩ φ) (idx : IVec ⟨2, ![M, 1]⟩ w)
    (upd : FVec Ideal ⟨1, ![M]⟩ φ) (v : Fin N) :
    Host.scatterAdd (F := Ideal) (vecScatterDims N M wf) x idx upd (ix1 v)
      = x (ix1 v) + ∑ e ∈ Finset.univ.filter (fun e : Fin M => (idx (ix2 e (0 : Fin 1))).toInt = (v.val : Int)),
          upd (ix1 e) :=
  scatterAdd_vec_apply wf x idx upd v

end ScatterEntries

end Idealize.ShloMosaic.RowOps

end
-- ==== Proof.KernelValue.lean ====
/-
  What the idealized kernel returns. Read off the boundary contents after the second kernel, its two result arrays
  are the routing layer's two functions of the argument arrays: the new node features are what the second stretch's
  scatter-add leaves (the second kernel does not touch them), and the new edge scores are the second kernel's output
  array. The shared pieces are named by the reference's stages: the weights, the target column and the two source
  columns (as added and as taken) are the reference's own functions of the arguments.
-/
import proofs.«124905_j71279277244617_2_alg».proof.Proof.KernelHost0
import proofs.«124905_j71279277244617_2_alg».proof.Proof.KernelHost1
import proofs.«124905_j71279277244617_2_alg».proof.Proof.KernelRegion1
import proofs.«124905_j71279277244617_2_alg».proof.Proof.SelectorTables
import proofs.«124905_j71279277244617_2_alg».proof.Proof.LibRowGatherScatter
import Idealize.ShloMosaic.Lib.Pipeline.Value

set_option maxRecDepth 65536

noncomputable section

open scoped BigOperators

namespace Cert.KernelIdeal.Fold

open Cert.KernelIdeal Cert.KernelIdeal.Gen
open Idealize.ShloMosaic Idealize.ShloMosaic.TcCoe Idealize.SL.Sem Idealize.ShloMosaic.ValueIdx
open Cert.Routing (SNode SEdge SCap SCol)

variable (m : (ℓ : Loc nD τ sig) → Buf (Elt Ideal) ℓ) (ρ : Dev nD → PrngReg)

/-! ## The shared arrays, as functions of the arguments -/

/-- The node features. -/
abbrev argX (c : Dev nD) : SNode.Idx → EReal := m ((c : Thread nD τ).loc main_arg0)
/-- The edge weights. -/
abbrev wts (c : Dev nD) : SCap.Idx → EReal :=
  Cert.ReferenceIdeal.Read.val_main_v35 (F := Ideal) (m ((c : Thread nD τ).loc main_arg1))
    (m ((c : Thread nD τ).loc main_arg4)) (m ((c : Thread nD τ).loc main_arg5))
/-- The target column, as rows are taken at it. -/
abbrev colT (c : Dev nD) : IVec SCol 32 :=
  Cert.ReferenceIdeal.Read.val_main_v41 (F := Ideal) (m ((c : Thread nD τ).loc main_arg5))
/-- The source column, as rows are added at it. -/
abbrev colA (c : Dev nD) : IVec SCol 32 :=
  Cert.ReferenceIdeal.Read.val_main_v47 (F := Ideal) (m ((c : Thread nD τ).loc main_arg4))
/-- The source column, as rows are taken at it. -/
abbrev colS (c : Dev nD) : IVec SCol 32 :=
  Cert.ReferenceIdeal.Read.val_main_v54 (F := Ideal) (m ((c : Thread nD τ).loc main_arg4))

/-- A row gather of a node array at a column is the rows taken at the column's clamped entries. -/
theorem gather_eq_taken (Y : SNode.Idx → EReal) (idx : IVec SCol 32) :
    Host.gather gather_S100000x128_S500000x1_S500000x128_1_0_n_n_0_1_1128 Y idx = Cert.Routing.taken Y idx := by
  funext j
  obtain ⟨e, k, rfl⟩ : ∃ (e : Fin 500000) (k : Fin 128), j = ix2 e k := ⟨j 0, j 1, eq_ix2 j⟩
  exact RowOps.gather_row_apply (N := 100000) (M := 500000) (C := 128) (by decide)
    gather_S100000x128_S500000x1_S500000x128_1_0_n_n_0_1_1128.wf Y idx e k

/-- The target rows the first stretch gathers. -/
theorem rows_eq (c : Dev nD) :
    W1 m ρ c (Proc.devRef .tc main_v41) = Cert.Routing.taken (argX m c) (colT m c) :=
  (W1_rows m ρ c).trans (gather_eq_taken _ _)

/-- The first kernel's output. -/
theorem scaled_eq (c : Dev nD) :
    W2 m ρ c (Proc.devRef .tc main_v42) = Cert.Routing.weighted (Cert.Routing.taken (argX m c) (colT m c)) (wts m c) := by
  rw [W2_scaled, rows_eq, W1_weights]

/-- An entry of the zero array. -/
theorem zeros_apply (n : Fin 100000) (k : Fin 128) :
    broadcastInDim S100000x128 ![] bcast_S_S100000x128 (constant (F := Ideal) S_ .f32 0x00000000#32) (ix2 n k) = (0 : EReal) :=
  (broadcastInDim_apply _ bcast_S_S100000x128 _ (ix2 n k) (fun a => a.elim0) (fun a => a.elim0)).trans Ideal.ofBits_zero_f32

/-- THE NEW NODE FEATURES, as the second stretch leaves them. -/
theorem sums_eq (c : Dev nD) :
    W3 m ρ c (Proc.devRef .tc main_v45) = Cert.Routing.newX (argX m c) (wts m c) (colT m c) (colA m c) := by
  refine (W3_sums m ρ c).trans ?_
  funext j
  obtain ⟨n, k, rfl⟩ : ∃ (n : Fin 100000) (k : Fin 128), j = ix2 n k := ⟨j 0, j 1, eq_ix2 j⟩
  refine (RowOps.host_scatterAdd_row_apply (N := 100000) (M := 500000) (C := 128)
    scatter_S100000x128_S500000x1_S500000x128_1_0_0_1.wf _ _ _ n k).trans ?_
  rw [zeros_apply, zero_add, scaled_eq]
  rfl

/-- RESULT 0: the second kernel leaves the new node features alone. -/
theorem result0 (c : Dev nD) :
    W4 m ρ c (Proc.devRef .tc main_v45) = Cert.Routing.newX (argX m c) (wts m c) (colT m c) (colA m c) :=
  (W4_of_ne m ρ c main_v45 (by decide)).trans (sums_eq m ρ c)

/-- RESULT 1: the second kernel's output array, the new edge scores. -/
theorem result1 (c : Dev nD) :
    W4 m ρ c (Proc.devRef .tc main_v53)
      = Cert.Routing.newEdge (argX m c) (wts m c) (colT m c) (colA m c) (colS m c) := by
  refine (W4_arr m ρ c 4).trans ?_
  refine (final1 (V3 m ρ) c ?_ ?_).trans ?_
  · intro k q
    show (W3 m ρ c (Proc.devRef .tc main_cst) (ix2 k q) : EReal) = _
    rw [W3_selector, W1_selector]
    exact Cert.KernelIdeal.Selector.selector_apply k q
  · intro q k
    show (W3 m ρ c (Proc.devRef .tc main_cst_0) (ix2 q k) : EReal) = _
    rw [W3_selectorT, W1_selectorT]
    exact Cert.KernelIdeal.Selector.selectorT_apply q k
  show Cert.Routing.combined (W3 m ρ c (Proc.devRef .tc main_v52)) (W3 m ρ c (Proc.devRef .tc main_v41)) = _
  rw [W3_taken, W3_rows, rows_eq, sums_eq, gather_eq_taken]
  rfl

end Cert.KernelIdeal.Fold

end
-- ==== Proof.LibSlabGatherScatter.lean ====
/-
  Slabs taken and slabs added: StableHLO's `gather` and accumulating float `scatter` for the dimension numbers
  that take whole `[C, D]` slabs of a rank-3 array `[N, C, D]` at a column of integer indices `[M, 1]`, read at
  one index, for arbitrary sizes. `N` is the number of slabs of the operand, `M` the number of index entries and
  `C`, `D` the two extents of a slab. The gather reads the operand's slab at the index entry, read as a signed
  integer and clamped into `[0, N - 1]`; the scatter adds to slab `v` every update slab whose index entry, read
  as a signed integer and NOT clamped, equals `v` (an entry outside `[0, N - 1]` is dropped). Both are the
  rank-3 analogues of the statements for rows of a matrix: a slab is addressed by one index on axis 0 and is
  copied or added entry by entry on axes 1 and 2.
-/
import Idealize.ShloMosaic.PureOps.Ideal
import Idealize.ShloMosaic.PureOps.Ideal.Laws
import Idealize.ShloMosaic.Lib.ValueIdx

noncomputable section

open scoped BigOperators

namespace Idealize.ShloMosaic.SlabOps

open Idealize.ShloMosaic Idealize.ShloMosaic.ValueIdx

/-! ## `stablehlo.gather` taking slabs of a rank-3 array -/

section GatherSlabs
variable {α : Type}

/-- The dimension numbers of "take slabs": operand `[N, C, D]`, start indices `[M, 1]`, result `[M, C, D]`; the
    result's axes 1 and 2 are the offset axes (a whole slab of `C × D` entries is the slice), the operand's axis 0
    is collapsed and is the one the start index addresses. The conditions `wf` are decided on a program's literal
    shapes. -/
abbrev slabGatherDims (N M C D : Nat)
    (wf : GatherDims.WF ⟨3, ![N, C, D]⟩ ⟨2, ![M, 1]⟩ ⟨3, ![M, C, D]⟩ [1, 2] [0] [] [0] [] 1 ![1, C, D]) :
    GatherDims ⟨3, ![N, C, D]⟩ ⟨2, ![M, 1]⟩ ⟨3, ![M, C, D]⟩ where
  offsetDims := [1, 2]
  collapsedSliceDims := [0]
  operandBatchingDims := []
  startIndicesBatchingDims := []
  startIndexMap := [0]
  indexVectorDim := 1
  sliceSizes := ![1, C, D]
  wf := wf

/-- THE SLAB GATHER READ AT `(e, c, d)`: entry `(c, d)` of the operand's slab number `idx[e, 0]`, the index read
    as a signed integer and clamped into `[0, N - 1]`. -/
theorem gather_slab_apply {N M C D w : Nat} (hN : 0 < N)
    (wf : GatherDims.WF ⟨3, ![N, C, D]⟩ ⟨2, ![M, 1]⟩ ⟨3, ![M, C, D]⟩ [1, 2] [0] [] [0] [] 1 ![1, C, D])
    (x : (⟨3, ![N, C, D]⟩ : Shape).Idx → α) (idx : IVec ⟨2, ![M, 1]⟩ w) (e : Fin M) (c : Fin C) (d : Fin D) :
    Host.gather (slabGatherDims N M C D wf) x idx (ix3 e c d)
      = x (ix3 ⟨min (idx (ix2 e (0 : Fin 1))).toInt.toNat (N - 1), by omega⟩ c d) := by
  unfold Host.gather
  congr 1
  funext a
  refine Fin.ext ?_
  match a with
  | ⟨0, _⟩ =>
    show (slabGatherDims N M C D wf).start (ix3 e c d) idx 0 + (slabGatherDims N M C D wf).batchCoord (ix3 e c d) 0
      + (slabGatherDims N M C D wf).offCoord (ix3 e c d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabGatherDims N M C D wf).startIndexMap from List.mem_singleton.mpr rfl)]
    have hsi : (slabGatherDims N M C D wf).siIdx (ix3 e c d)
        ⟨List.idxOf (0 : Fin 3) (slabGatherDims N M C D wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (slabGatherDims N M C D wf).start (ix3 e c d) idx 1 + (slabGatherDims N M C D wf).batchCoord (ix3 e c d) 1
      + (slabGatherDims N M C D wf).offCoord (ix3 e c d) 1 = c.val
    rw [GatherDims.batchCoord_eq_zero _ _ _ List.not_mem_nil]
    unfold GatherDims.start
    rw [dif_neg (show (1 : Fin 3) ∉ (slabGatherDims N M C D wf).startIndexMap from
      (by decide : (1 : Fin 3) ∉ ([0] : List (Fin 3))))]
    simp only [Nat.add_zero, Nat.zero_add]
    unfold GatherDims.offCoord
    rw [dif_pos (show (1 : Fin 3) ∈ (slabGatherDims N M C D wf).sKept from
      (GatherDims.mem_sKept _ _).mpr ⟨(by decide : (1 : Fin 3) ∉ ([0] : List (Fin 3))), List.not_mem_nil⟩)]
    rfl
  | ⟨2, _⟩ =>
    show (slabGatherDims N M C D wf).start (ix3 e c d) idx 2 + (slabGatherDims N M C D wf).batchCoord (ix3 e c d) 2
      + (slabGatherDims N M C D wf).offCoord (ix3 e c d) 2 = d.val
    rw [GatherDims.batchCoord_eq_zero _ _ _ List.not_mem_nil]
    unfold GatherDims.start
    rw [dif_neg (show (2 : Fin 3) ∉ (slabGatherDims N M C D wf).startIndexMap from
      (by decide : (2 : Fin 3) ∉ ([0] : List (Fin 3))))]
    simp only [Nat.add_zero, Nat.zero_add]
    unfold GatherDims.offCoord
    rw [dif_pos (show (2 : Fin 3) ∈ (slabGatherDims N M C D wf).sKept from
      (GatherDims.mem_sKept _ _).mpr ⟨(by decide : (2 : Fin 3) ∉ ([0] : List (Fin 3))), List.not_mem_nil⟩)]
    rfl

end GatherSlabs

/-! ## The accumulating float `stablehlo.scatter` adding slabs to a rank-3 array -/

section ScatterSlabs

/-- The dimension numbers of "add slabs": operand `[N, C, D]`, scatter indices `[M, 1]`, updates `[M, C, D]`; the
    updates' axes 1 and 2 are the window axes (a whole slab of `C × D` entries is the window), the operand's axis 0
    is the inserted window axis and is the one the scatter index addresses. The conditions `wf` are decided on a
    program's literal shapes. -/
abbrev slabScatterDims (N M C D : Nat)
    (wf : ScatterDims.WF ⟨3, ![N, C, D]⟩ ⟨2, ![M, 1]⟩ ⟨3, ![M, C, D]⟩ [1, 2] [0] [0] 1) :
    ScatterDims ⟨3, ![N, C, D]⟩ ⟨2, ![M, 1]⟩ ⟨3, ![M, C, D]⟩ where
  updateWindowDims := [1, 2]
  insertedWindowDims := [0]
  scatterDimsToOperandDims := [0]
  indexVectorDim := 1
  wf := wf

variable {N M C D w : Nat} (wf : ScatterDims.WF ⟨3, ![N, C, D]⟩ ⟨2, ![M, 1]⟩ ⟨3, ![M, C, D]⟩ [1, 2] [0] [0] 1)

/-- On the slab axis the window of update `(e, c', d')` starts at the scatter index `idx[e, 0]`, read as a signed
    integer. -/
theorem slabScatter_start0 (idx : IVec ⟨2, ![M, 1]⟩ w) (e : Fin M) (c' : Fin C) (d' : Fin D) :
    (slabScatterDims N M C D wf).start (ix3 e c' d') idx 0 = (idx (ix2 e (0 : Fin 1))).toInt := by
  unfold ScatterDims.start
  rw [dif_pos (show (0 : Fin 3) ∈ (slabScatterDims N M C D wf).scatterDimsToOperandDims from
    List.mem_singleton.mpr rfl)]
  have hsi : (slabScatterDims N M C D wf).siIdx (ix3 e c' d')
      ⟨List.idxOf (0 : Fin 3) (slabScatterDims N M C D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the first axis of a slab the window starts at `0`: the scatter index does not address it. -/
theorem slabScatter_start1 (idx : IVec ⟨2, ![M, 1]⟩ w) (e : Fin M) (c' : Fin C) (d' : Fin D) :
    (slabScatterDims N M C D wf).start (ix3 e c' d') idx 1 = 0 := by
  unfold ScatterDims.start
  rw [dif_neg (show (1 : Fin 3) ∉ (slabScatterDims N M C D wf).scatterDimsToOperandDims from
    (by decide : (1 : Fin 3) ∉ ([0] : List (Fin 3))))]

/-- On the second axis of a slab the window starts at `0` as well. -/
theorem slabScatter_start2 (idx : IVec ⟨2, ![M, 1]⟩ w) (e : Fin M) (c' : Fin C) (d' : Fin D) :
    (slabScatterDims N M C D wf).start (ix3 e c' d') idx 2 = 0 := by
  unfold ScatterDims.start
  rw [dif_neg (show (2 : Fin 3) ∉ (slabScatterDims N M C D wf).scatterDimsToOperandDims from
    (by decide : (2 : Fin 3) ∉ ([0] : List (Fin 3))))]

/-- The slab axis is inserted: the window coordinate there is `0`. -/
theorem slabScatter_window0 (e : Fin M) (c' : Fin C) (d' : Fin D) :
    (slabScatterDims N M C D wf).window (ix3 e c' d') 0 = 0 := by
  unfold ScatterDims.window
  rw [dif_neg]
  intro h
  have h' : (0 : Fin 3) ∈ (List.finRange 3).filter (fun a => a ∉ ([0] : List (Fin 3))) := h
  exact absurd h' (by decide)

/-- On the first axis of a slab the window coordinate of update `(e, c', d')` is `c'`. -/
theorem slabScatter_window1 (e : Fin M) (c' : Fin C) (d' : Fin D) :
    (slabScatterDims N M C D wf).window (ix3 e c' d') 1 = c'.val := by
  unfold ScatterDims.window
  rw [dif_pos (show (1 : Fin 3) ∈ (slabScatterDims N M C D wf).sKept from
    (by decide : (1 : Fin 3) ∈ (List.finRange 3).filter (fun a => a ∉ ([0] : List (Fin 3)))))]
  rfl

/-- On the second axis of a slab the window coordinate of update `(e, c', d')` is `d'`. -/
theorem slabScatter_window2 (e : Fin M) (c' : Fin C) (d' : Fin D) :
    (slabScatterDims N M C D wf).window (ix3 e c' d') 2 = d'.val := by
  unfold ScatterDims.window
  rw [dif_pos (show (2 : Fin 3) ∈ (slabScatterDims N M C D wf).sKept from
    (by decide : (2 : Fin 3) ∈ (List.finRange 3).filter (fun a => a ∉ ([0] : List (Fin 3)))))]
  rfl

/-- WHERE AN UPDATE LANDS: update `(e, c', d')` lands at operand element `(v, c, d)` exactly when its scatter index
    `idx[e, 0]`, read as a signed integer (not clamped), is `v` and its position in the slab is `(c, d)`. -/
theorem slabScatter_resultIdx_eq_some (idx : IVec ⟨2, ![M, 1]⟩ w) (e : Fin M) (c' c : Fin C) (d' d : Fin D)
    (v : Fin N) :
    (slabScatterDims N M C D wf).resultIdx? (ix3 e c' d') idx = some (ix3 v c d)
      ↔ (idx (ix2 e (0 : Fin 1))).toInt = (v.val : Int) ∧ c' = c ∧ d' = d := by
  have hv : (v.val : Int) < (N : Int) := by exact_mod_cast v.isLt
  have hc : (c'.val : Int) < (C : Int) := by exact_mod_cast c'.isLt
  have hd : (d'.val : Int) < (D : Int) := by exact_mod_cast d'.isLt
  unfold ScatterDims.resultIdx?
  constructor
  · intro h
    split at h
    · rename_i hin
      have hf := Option.some.inj h
      have h0 := congrArg Fin.val (congrFun hf 0)
      have h1 := congrArg Fin.val (congrFun hf 1)
      have h2 := congrArg Fin.val (congrFun hf 2)
      have hin0 := (hin 0).1
      simp only [slabScatter_start0, slabScatter_start1, slabScatter_start2, slabScatter_window0,
        slabScatter_window1, slabScatter_window2] at h0 h1 h2 hin0
      refine ⟨?_, Fin.ext ?_, Fin.ext ?_⟩
      · change ((idx (ix2 e (0 : Fin 1))).toInt + ((0 : Nat) : Int)).toNat = v.val at h0
        omega
      · change ((0 : Int) + (c'.val : Int)).toNat = c.val at h1
        omega
      · change ((0 : Int) + (d'.val : Int)).toNat = d.val at h2
        omega
    · exact absurd h (by simp)
  · rintro ⟨hi, rfl, rfl⟩
    have hin : ∀ a, 0 ≤ (slabScatterDims N M C D wf).start (ix3 e c' d') idx a
          + (slabScatterDims N M C D wf).window (ix3 e c' d') a ∧
        (slabScatterDims N M C D wf).start (ix3 e c' d') idx a + (slabScatterDims N M C D wf).window (ix3 e c' d') a
          < (⟨3, ![N, C, D]⟩ : Shape).size a := by
      intro a
      match a with
      | ⟨0, _⟩ =>
        show 0 ≤ (slabScatterDims N M C D wf).start (ix3 e c' d') idx 0
            + (slabScatterDims N M C D wf).window (ix3 e c' d') 0 ∧
          (slabScatterDims N M C D wf).start (ix3 e c' d') idx 0
            + (slabScatterDims N M C D wf).window (ix3 e c' d') 0 < (N : Int)
        rw [slabScatter_start0, slabScatter_window0, hi]
        constructor <;> omega
      | ⟨1, _⟩ =>
        show 0 ≤ (slabScatterDims N M C D wf).start (ix3 e c' d') idx 1
            + (slabScatterDims N M C D wf).window (ix3 e c' d') 1 ∧
          (slabScatterDims N M C D wf).start (ix3 e c' d') idx 1
            + (slabScatterDims N M C D wf).window (ix3 e c' d') 1 < (C : Int)
        rw [slabScatter_start1, slabScatter_window1]
        constructor <;> omega
      | ⟨2, _⟩ =>
        show 0 ≤ (slabScatterDims N M C D wf).start (ix3 e c' d') idx 2
            + (slabScatterDims N M C D wf).window (ix3 e c' d') 2 ∧
          (slabScatterDims N M C D wf).start (ix3 e c' d') idx 2
            + (slabScatterDims N M C D wf).window (ix3 e c' d') 2 < (D : Int)
        rw [slabScatter_start2, slabScatter_window2]
        constructor <;> omega
    rw [dif_pos hin]
    congr 1
    funext a
    refine Fin.ext ?_
    match a with
    | ⟨0, _⟩ =>
      show ((slabScatterDims N M C D wf).start (ix3 e c' d') idx 0
        + (slabScatterDims N M C D wf).window (ix3 e c' d') 0).toNat = v.val
      rw [slabScatter_start0, slabScatter_window0, hi]
      omega
    | ⟨1, _⟩ =>
      show ((slabScatterDims N M C D wf).start (ix3 e c' d') idx 1
        + (slabScatterDims N M C D wf).window (ix3 e c' d') 1).toNat = c'.val
      rw [slabScatter_start1, slabScatter_window1]
      omega
    | ⟨2, _⟩ =>
      show ((slabScatterDims N M C D wf).start (ix3 e c' d') idx 2
        + (slabScatterDims N M C D wf).window (ix3 e c' d') 2).toNat = d'.val
      rw [slabScatter_start2, slabScatter_window2]
      omega

end ScatterSlabs

section ScatterSlabsSum
variable {N M C D w : Nat} (wf : ScatterDims.WF ⟨3, ![N, C, D]⟩ ⟨2, ![M, 1]⟩ ⟨3, ![M, C, D]⟩ [1, 2] [0] [0] 1)

/-- A rank-3 index's first coordinate is below the first extent, written as `n0` itself. -/
theorem idx3_lt0 {n0 n1 n2 : Nat} (j : (⟨3, ![n0, n1, n2]⟩ : Shape).Idx) : (j 0).val < n0 := (j 0).isLt

/-- THE SLAB SCATTER-ADD READ AT `(v, c, d)`, at the ideal values: the operand's element plus the sum, over the
    index entries `e` whose scatter index `idx[e, 0]` (read as a signed integer, not clamped) is `v`, of entry
    `(c, d)` of update slab `e`. The updates landing at `(v, c, d)` are exactly the `(e, c, d)` with
    `idx[e, 0] = v` (`slabScatter_resultIdx_eq_some`), and `e ↦ (e, c, d)` re-indexes the sum. -/
theorem scatterAdd_slab_apply (x : (⟨3, ![N, C, D]⟩ : Shape).Idx → EReal) (idx : IVec ⟨2, ![M, 1]⟩ w)
    (upd : (⟨3, ![M, C, D]⟩ : Shape).Idx → EReal) (v : Fin N) (c : Fin C) (d : Fin D) :
    Ideal.hostScatterAdd (slabScatterDims N M C D wf) x idx upd (ix3 v c d)
      = x (ix3 v c d) + ∑ e ∈ Finset.univ.filter (fun e : Fin M => (idx (ix2 e (0 : Fin 1))).toInt = (v.val : Int)),
          upd (ix3 e c d) := by
  unfold Ideal.hostScatterAdd
  congr 1
  refine Finset.sum_nbij' (fun j => (⟨(j 0).val, idx3_lt0 j⟩ : Fin M)) (fun e => ix3 e c d) ?_ ?_ ?_ ?_ ?_
  · intro j hj
    obtain ⟨a, b, g, rfl⟩ : ∃ (a : Fin M) (b : Fin C) (g : Fin D), j = ix3 a b g := ⟨_, _, _, eq_ix3 j⟩
    rw [Finset.mem_filter] at hj ⊢
    exact ⟨Finset.mem_univ _, ((slabScatter_resultIdx_eq_some wf idx a b c g d v).mp hj.2).1⟩
  · intro e he
    rw [Finset.mem_filter] at he ⊢
    exact ⟨Finset.mem_univ _, (slabScatter_resultIdx_eq_some wf idx e c c d d v).mpr ⟨he.2, rfl, rfl⟩⟩
  · intro j hj
    obtain ⟨a, b, g, rfl⟩ : ∃ (a : Fin M) (b : Fin C) (g : Fin D), j = ix3 a b g := ⟨_, _, _, eq_ix3 j⟩
    rw [Finset.mem_filter] at hj
    obtain ⟨_, rfl, rfl⟩ := (slabScatter_resultIdx_eq_some wf idx a b c g d v).mp hj.2
    rfl
  · intro e _
    rfl
  · intro j hj
    obtain ⟨a, b, g, rfl⟩ : ∃ (a : Fin M) (b : Fin C) (g : Fin D), j = ix3 a b g := ⟨_, _, _, eq_ix3 j⟩
    rw [Finset.mem_filter] at hj
    obtain ⟨_, rfl, rfl⟩ := (slabScatter_resultIdx_eq_some wf idx a b c g d v).mp hj.2
    rfl

/-- The same through the program's operation: `Host.scatterAdd` at the ideal values is `Ideal.hostScatterAdd`. -/
theorem host_scatterAdd_slab_apply {φ : FTy} (x : FVec Ideal ⟨3, ![N, C, D]⟩ φ) (idx : IVec ⟨2, ![M, 1]⟩ w)
    (upd : FVec Ideal ⟨3, ![M, C, D]⟩ φ) (v : Fin N) (c : Fin C) (d : Fin D) :
    Host.scatterAdd (F := Ideal) (slabScatterDims N M C D wf) x idx upd (ix3 v c d)
      = x (ix3 v c d) + ∑ e ∈ Finset.univ.filter (fun e : Fin M => (idx (ix2 e (0 : Fin 1))).toInt = (v.val : Int)),
          upd (ix3 e c d) :=
  scatterAdd_slab_apply wf x idx upd v c d

end ScatterSlabsSum

end Idealize.ShloMosaic.SlabOps

end
-- ==== Proof.RefValue.lean ====
/-
  What the idealized reference returns. It reads the node features as 4 capsules of 32 lanes (a reshape), takes and
  adds whole 4 × 32 slabs where the kernel takes and adds rows of 128, normalises each capsule by a sum over the lane
  axis, and reshapes the sums back at the end. Read at an index, a slab operation at `(n, c, d)` is the row operation
  at `(n, 32 c + d)`, and the reference's two results are the routing layer's two functions of the argument arrays,
  the weights and the three index columns being the reference's own stages.
-/
import proofs.«124905_j71279277244617_2_alg».proof.Proof.Gen.ReferenceIdeal.Read
import proofs.«124905_j71279277244617_2_alg».proof.Proof.Routing
import proofs.«124905_j71279277244617_2_alg».proof.Proof.LibSlabGatherScatter
import Idealize.ShloMosaic.Lib.ValueIdx
import Idealize.ShloMosaic.PureOps.Ideal
import Idealize.ShloMosaic.PureOps.Ideal.Laws

set_option maxRecDepth 65536

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.Routing (SNode SEdge SCap SCol cap lane lane_val cap_lane taken weighted addedUp newX newEdge rowAt rowNorm rowUnit rowCombined)

variable (x0 : (⟨S100000x128, .f32⟩ : BufTy).Contents (Elt Ideal)) (x1 : (⟨S500000x4, .f32⟩ : BufTy).Contents (Elt Ideal))
  (x4 x5 : (⟨S500000, .i32⟩ : BufTy).Contents (Elt Ideal))

/-! ## Index bookkeeping -/

/-- A lane is lane `d` of capsule `c` for some `c`, `d`. -/
theorem lane_split (k : Fin 128) : ∃ (c : Fin 4) (d : Fin 32), k = lane c d :=
  ⟨cap k, ⟨k.val % 32, Nat.mod_lt _ (by decide)⟩, Fin.ext (by
    rw [lane_val, Cert.Routing.cap_val]
    show k.val = k.val / 32 * 32 + k.val % 32
    omega)⟩

/-- The reshape to capsules: entry `(n, c, d)` of the reshaped features is entry `(n, 32 c + d)`. -/
theorem idx_reshape (n : Fin 100000) (c : Fin 4) (d : Fin 32) : idx_main_v0 (ix3 n c d) = ix2 n (lane c d) := by
  have hc := c.isLt
  have hd := d.isLt
  funext a
  refine Fin.ext ?_
  match a with
  | ⟨0, _⟩ =>
    show ((n.val * 4 + c.val) * 32 + d.val) / 128 = n.val
    omega
  | ⟨1, _⟩ =>
    show ((n.val * 4 + c.val) * 32 + d.val) % 128 = (lane c d).val
    rw [lane_val]
    omega

/-- The reshape back: entry `(n, 32 c + d)` of the result is entry `(n, c, d)` of the capsule form. -/
theorem idx_reshape_back (n : Fin 100000) (c : Fin 4) (d : Fin 32) : idx_main_v82 (ix2 n (lane c d)) = ix3 n c d := by
  have hc := c.isLt
  have hd := d.isLt
  have hl : (lane c d).val = c.val * 32 + d.val := lane_val c d
  funext a
  refine Fin.ext ?_
  match a with
  | ⟨0, _⟩ =>
    show (n.val * 128 + (lane c d).val) / 128 = n.val
    omega
  | ⟨1, _⟩ =>
    show (n.val * 128 + (lane c d).val) / 32 % 4 = c.val
    omega
  | ⟨2, _⟩ =>
    show (n.val * 128 + (lane c d).val) % 32 = d.val
    omega

/-- The reference normalises the target column twice, by the same operations. -/
theorem col_again : val_main_v69 (F := Ideal) x5 = val_main_v41 (F := Ideal) x5 := rfl

/-! ## Slabs taken and added are rows taken and added -/

/-- A slab gather of the capsule form of a node array at a column is the rows of the array taken at the column. -/
theorem slabGather_eq_taken (Y3 : S100000x4x32.Idx → EReal) (Y : SNode.Idx → EReal)
    (hY : ∀ (n : Fin 100000) (c : Fin 4) (d : Fin 32), Y3 (ix3 n c d) = Y (ix2 n (lane c d)))
    (idx : IVec SCol 32) (e : Fin 500000) (c : Fin 4) (d : Fin 32) :
    Host.gather gather_S100000x4x32_S500000x1_S500000x4x32_12_0_n_n_0_1_1432 Y3 idx (ix3 e c d)
      = taken Y idx (ix2 e (lane c d)) := by
  refine (SlabOps.gather_slab_apply (N := 100000) (M := 500000) (C := 4) (D := 32) (by decide)
    gather_S100000x4x32_S500000x1_S500000x4x32_12_0_n_n_0_1_1432.wf Y3 idx e c d).trans ?_
  rw [hY]
  rfl

/-- The reshaped features. -/
theorem reshaped_apply (n : Fin 100000) (c : Fin 4) (d : Fin 32) :
    val_main_v0 (F := Ideal) x0 (ix3 n c d) = x0 (ix2 n (lane c d)) := by
  rw [val_main_v0_apply, idx_reshape]

/-- The target slabs: the target rows. -/
theorem tail_eq (e : Fin 500000) (c : Fin 4) (d : Fin 32) :
    val_main_v42 (F := Ideal) x0 x5 (ix3 e c d) = taken x0 (val_main_v41 (F := Ideal) x5) (ix2 e (lane c d)) :=
  slabGather_eq_taken (val_main_v0 (F := Ideal) x0) x0 (reshaped_apply x0) _ e c d

theorem tail_eq' (e : Fin 500000) (c : Fin 4) (d : Fin 32) :
    val_main_v70 (F := Ideal) x0 x5 (ix3 e c d) = taken x0 (val_main_v41 (F := Ideal) x5) (ix2 e (lane c d)) := by
  show Host.gather _ (val_main_v0 (F := Ideal) x0) (val_main_v69 (F := Ideal) x5) (ix3 e c d) = _
  rw [col_again]
  exact slabGather_eq_taken (val_main_v0 (F := Ideal) x0) x0 (reshaped_apply x0) _ e c d

/-- The scaled slabs: the scaled rows. -/
theorem scaled_eq (e : Fin 500000) (c : Fin 4) (d : Fin 32) :
    val_main_v45 (F := Ideal) x0 x1 x4 x5 (ix3 e c d)
      = weighted (taken x0 (val_main_v41 (F := Ideal) x5)) (val_main_v35 (F := Ideal) x1 x4 x5) (ix2 e (lane c d)) := by
  have hi : idx_main_v43 (idx_main_v44 (ix3 e c d)) = ix2 e c := by
    funext a
    refine Fin.ext ?_
    match a with
    | ⟨0, _⟩ => rfl
    | ⟨1, _⟩ => rfl
  rw [val_main_v45_apply, tail_eq, val_main_v44_apply, val_main_v43_apply, hi, Cert.Routing.weighted_apply, cap_lane]
  rfl

/-- THE SUMS, in capsule form: the new node features. -/
theorem sums_eq (n : Fin 100000) (c : Fin 4) (d : Fin 32) :
    val_main_v48 (F := Ideal) x0 x1 x4 x5 (ix3 n c d)
      = newX x0 (val_main_v35 (F := Ideal) x1 x4 x5) (val_main_v41 (F := Ideal) x5) (val_main_v47 (F := Ideal) x4) (ix2 n (lane c d)) := by
  show Host.scatterAdd (F := Ideal) scatter_S100000x4x32_S500000x1_S500000x4x32_12_0_0_1 (val_main_v46 (F := Ideal))
    (val_main_v47 (F := Ideal) x4) (val_main_v45 (F := Ideal) x0 x1 x4 x5) (ix3 n c d) = _
  refine (SlabOps.host_scatterAdd_slab_apply (N := 100000) (M := 500000) (C := 4) (D := 32)
    scatter_S100000x4x32_S500000x1_S500000x4x32_12_0_0_1.wf _ _ _ n c d).trans ?_
  have hz : val_main_v46 (F := Ideal) (ix3 n c d) = (0 : EReal) := by
    rw [val_main_v46_apply]
    exact Ideal.ofBits_zero_f32
  rw [hz, zero_add]
  show _ = addedUp _ _ (ix2 n (lane c d))
  rw [Cert.Routing.addedUp_apply]
  exact Finset.sum_congr rfl fun e _ => scaled_eq x0 x1 x4 x5 e c d

/-- RESULT 0: the sums reshaped back. -/
theorem result0 :
    val_main_v82 (F := Ideal) x0 x1 x4 x5
      = newX x0 (val_main_v35 (F := Ideal) x1 x4 x5) (val_main_v41 (F := Ideal) x5) (val_main_v47 (F := Ideal) x4) := by
  funext j
  obtain ⟨n, k, rfl⟩ : ∃ (n : Fin 100000) (k : Fin 128), j = ix2 n k := ⟨j 0, j 1, eq_ix2 j⟩
  obtain ⟨c, d, rfl⟩ := lane_split k
  rw [val_main_v82_apply, idx_reshape_back, sums_eq]

/-! ## The new edge scores -/

/-- The head slabs: the rows of the sums taken at the sources. -/
theorem head_eq (e : Fin 500000) (c : Fin 4) (d : Fin 32) :
    val_main_v55 (F := Ideal) x0 x1 x4 x5 (ix3 e c d)
      = taken (newX x0 (val_main_v35 (F := Ideal) x1 x4 x5) (val_main_v41 (F := Ideal) x5) (val_main_v47 (F := Ideal) x4))
          (val_main_v54 (F := Ideal) x4) (ix2 e (lane c d)) :=
  slabGather_eq_taken (val_main_v48 (F := Ideal) x0 x1 x4 x5) _ (sums_eq x0 x1 x4 x5) _ e c d

/-- The head slab divided by its capsule's divisor. -/
theorem headUnit_eq (e : Fin 500000) (c : Fin 4) (d : Fin 32) :
    val_main_v63 (F := Ideal) x0 x1 x4 x5 (ix3 e c d)
      = rowUnit (rowAt (taken (newX x0 (val_main_v35 (F := Ideal) x1 x4 x5) (val_main_v41 (F := Ideal) x5)
          (val_main_v47 (F := Ideal) x4)) (val_main_v54 (F := Ideal) x4)) e) (lane c d) := by
  have hsq : val_main_v57 (F := Ideal) x0 x1 x4 x5 (ix2 e c)
      = ∑ k : Fin 32,
          taken (newX x0 (val_main_v35 (F := Ideal) x1 x4 x5) (val_main_v41 (F := Ideal) x5) (val_main_v47 (F := Ideal) x4))
              (val_main_v54 (F := Ideal) x4) (ix2 e (lane c k))
            * taken (newX x0 (val_main_v35 (F := Ideal) x1 x4 x5) (val_main_v41 (F := Ideal) x5) (val_main_v47 (F := Ideal) x4))
              (val_main_v54 (F := Ideal) x4) (ix2 e (lane c k)) := by
    rw [val_main_v57_apply]
    show Ideal.ofBits .f32 0x00000000#32 + _ = _
    rw [Ideal.ofBits_zero_f32, zero_add]
    refine Finset.sum_congr rfl fun k _ => ?_
    have hi : idx_main_v57 (ix2 e c) k = ix3 e c k := by
      funext a
      refine Fin.ext ?_
      match a with
      | ⟨0, _⟩ => rfl
      | ⟨1, _⟩ => rfl
      | ⟨2, _⟩ => rfl
    rw [hi, val_main_v56_apply, head_eq]
    rfl
  have hi58 : idx_main_v58 (ix3 e c (0 : Fin 1)) = ix2 e c := by
    funext a
    refine Fin.ext ?_
    match a with
    | ⟨0, _⟩ => rfl
    | ⟨1, _⟩ => rfl
  have hi62 : idx_main_v62 (ix3 e c d) = ix3 e c (0 : Fin 1) := by
    funext a
    refine Fin.ext ?_
    match a with
    | ⟨0, _⟩ => rfl
    | ⟨1, _⟩ => rfl
    | ⟨2, _⟩ => rfl
  rw [val_main_v63_apply, val_main_v62_apply, hi62, val_main_v61_apply, val_main_v59_apply, val_main_v58_apply, hi58, hsq,
    val_main_v60_apply, head_eq]
  generalize taken (newX x0 (val_main_v35 (F := Ideal) x1 x4 x5) (val_main_v41 (F := Ideal) x5) (val_main_v47 (F := Ideal) x4))
    (val_main_v54 (F := Ideal) x4) = H
  unfold rowUnit
  rw [cap_lane]
  rfl

/-- The tail slab divided by its capsule's divisor. -/
theorem tailUnit_eq (e : Fin 500000) (c : Fin 4) (d : Fin 32) :
    val_main_v78 (F := Ideal) x0 x5 (ix3 e c d)
      = rowUnit (rowAt (taken x0 (val_main_v41 (F := Ideal) x5)) e) (lane c d) := by
  have hsq : val_main_v72 (F := Ideal) x0 x5 (ix2 e c)
      = ∑ k : Fin 32, taken x0 (val_main_v41 (F := Ideal) x5) (ix2 e (lane c k))
          * taken x0 (val_main_v41 (F := Ideal) x5) (ix2 e (lane c k)) := by
    rw [val_main_v72_apply]
    show Ideal.ofBits .f32 0x00000000#32 + _ = _
    rw [Ideal.ofBits_zero_f32, zero_add]
    refine Finset.sum_congr rfl fun k _ => ?_
    have hi : idx_main_v72 (ix2 e c) k = ix3 e c k := by
      funext a
      refine Fin.ext ?_
      match a with
      | ⟨0, _⟩ => rfl
      | ⟨1, _⟩ => rfl
      | ⟨2, _⟩ => rfl
    rw [hi, val_main_v71_apply, tail_eq']
    rfl
  have hi73 : idx_main_v73 (ix3 e c (0 : Fin 1)) = ix2 e c := by
    funext a
    refine Fin.ext ?_
    match a with
    | ⟨0, _⟩ => rfl
    | ⟨1, _⟩ => rfl
  have hi77 : idx_main_v77 (ix3 e c d) = ix3 e c (0 : Fin 1) := by
    funext a
    refine Fin.ext ?_
    match a with
    | ⟨0, _⟩ => rfl
    | ⟨1, _⟩ => rfl
    | ⟨2, _⟩ => rfl
  rw [val_main_v78_apply, val_main_v77_apply, hi77, val_main_v76_apply, val_main_v74_apply, val_main_v73_apply, hi73, hsq,
    val_main_v75_apply, tail_eq']
  unfold rowUnit
  rw [cap_lane]
  rfl

/-- RESULT 1: per edge and capsule, the sum over the lanes of the head slab's normalised entries times the
    hyperbolic tangent of the tail slab's. -/
theorem result1 :
    val_main_v81 (F := Ideal) x0 x1 x4 x5
      = newEdge x0 (val_main_v35 (F := Ideal) x1 x4 x5) (val_main_v41 (F := Ideal) x5) (val_main_v47 (F := Ideal) x4)
          (val_main_v54 (F := Ideal) x4) := by
  funext j
  obtain ⟨e, c, rfl⟩ : ∃ (e : Fin 500000) (c : Fin 4), j = ix2 e c := ⟨j 0, j 1, eq_ix2 j⟩
  rw [val_main_v81_apply]
  show Ideal.ofBits .f32 0x00000000#32 + _ = _
  rw [Ideal.ofBits_zero_f32, zero_add]
  show _ = rowCombined _ _ c
  refine Finset.sum_congr rfl fun d _ => ?_
  have hi : idx_main_v81 (ix2 e c) d = ix3 e c d := by
    funext a
    refine Fin.ext ?_
    match a with
    | ⟨0, _⟩ => rfl
    | ⟨1, _⟩ => rfl
    | ⟨2, _⟩ => rfl
  rw [hi, val_main_v80_apply, val_main_v79_apply, headUnit_eq, tailUnit_eq]
  rfl

end Cert.ReferenceIdeal.RefValue

end
-- ==== Proof.lean ====
/-
  A capsule-routing layer on a graph of 100000 nodes and 500000 edges, each node carrying 128 features read as
  4 capsules of 32 lanes. Each edge's four scores are turned into weights (a softmax over the capsules, divided by
  the square roots of the degrees, clamped below at 1e-8, of the edge's two end nodes). The NEW NODE FEATURES add up,
  per source node, the target's features scaled capsule by capsule by the edge's weights. The NEW EDGE SCORES
  combine, per edge and capsule, the new features of the source and the old features of the target: each is divided
  by the larger of its capsule's Euclidean norm and 1e-12, and the first is multiplied lane by lane with the
  hyperbolic tangent of the second and summed over the capsule's lanes.

  The kernel computes the weights and the gathers by the same host operations as the reference, then runs two kernels
  over blocks of 10000 edges: the first scales each gathered row, one 32-lane strip per capsule; the second forms the
  per-capsule sums and spreads the divisors by products with a constant 0/1 matrix marking which lane belongs to
  which capsule. The reference works on the features reshaped to 100000 × 4 × 32 and reduces over the lane axis.

  On the extended reals the two agree exactly, for EVERY input (the precondition is never opened): a product with a
  0/1 matrix is a sum over one capsule's lanes, or one value spread over them, because `a · 0 = 0` and `a · 1 = a`
  hold for every extended real; a gather or scatter-add of 4 × 32 slabs at `(n, c, d)` is the gather or scatter-add of
  rows at `(n, 32 c + d)`; conversions between float formats are the identity; the kernel's and the host's square
  root, quotient and hyperbolic tangent are the same functions; and the weights and index columns are literally the
  same terms of the arguments in both programs. Both results are therefore the two functions `Cert.Routing.newX` and
  `Cert.Routing.newEdge` of the argument arrays.

  The frames of the two kernel programs are the generated ones; the reference's frame is its generated run with the
  results dropped; the idealization rewrote nothing, so `preserves` is trivial.
-/
import proofs.«124905_j71279277244617_2_alg».proof.Defs
import proofs.«124905_j71279277244617_2_alg».proof.Proof.Gen.Kernel
import proofs.«124905_j71279277244617_2_alg».proof.Proof.Gen.Kernel.Skeleton
import proofs.«124905_j71279277244617_2_alg».proof.Proof.Gen.Kernel.Launch
import proofs.«124905_j71279277244617_2_alg».proof.Proof.Gen.Kernel.Points
import proofs.«124905_j71279277244617_2_alg».proof.Proof.Gen.Kernel.Frame
import proofs.«124905_j71279277244617_2_alg».proof.Proof.Gen.KernelIdeal
import proofs.«124905_j71279277244617_2_alg».proof.Proof.Gen.KernelIdeal.Skeleton
import proofs.«124905_j71279277244617_2_alg».proof.Proof.Gen.KernelIdeal.Launch
import proofs.«124905_j71279277244617_2_alg».proof.Proof.Gen.KernelIdeal.Points
import proofs.«124905_j71279277244617_2_alg».proof.Proof.Gen.KernelIdeal.Frame
import proofs.«124905_j71279277244617_2_alg».proof.Proof.Gen.ReferenceIdeal
import proofs.«124905_j71279277244617_2_alg».proof.Proof.Gen.ReferenceIdeal.Run
import proofs.«124905_j71279277244617_2_alg».proof.Proof.Gen.ReferenceIdeal.Read
import proofs.«124905_j71279277244617_2_alg».proof.Proof.Gen.Pre_finite_inputs
import proofs.«124905_j71279277244617_2_alg».proof.Proof.KernelRun
import proofs.«124905_j71279277244617_2_alg».proof.Proof.KernelValue
import proofs.«124905_j71279277244617_2_alg».proof.Proof.RefValue
import Idealize.ShloMosaic.Adequacy
import Idealize.ShloMosaic.Init

set_option maxRecDepth 65536

noncomputable section

namespace Cert.Proof

open Idealize.ShloMosaic Idealize.ShloMosaic.TcCoe Idealize.SL.Sem

/-! ## The frames and the idealization -/

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

theorem preserves : Cert.preserves_Kernel_KernelIdeal := trivial

/-! ## Equal results -/

/-- Run from memories agreeing on the arguments, the idealized kernel and the idealized reference both end with the
    new node features and the new edge scores of the routing layer, as functions of the kernel's argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Routing.newX (Cert.KernelIdeal.Fold.argX m c) (Cert.KernelIdeal.Fold.wts m c)
      (Cert.KernelIdeal.Fold.colT m c) (Cert.KernelIdeal.Fold.colA m c),
    fun c => Cert.Routing.newEdge (Cert.KernelIdeal.Fold.argX m c) (Cert.KernelIdeal.Fold.wts m c)
      (Cert.KernelIdeal.Fold.colT m c) (Cert.KernelIdeal.Fold.colA m c) (Cert.KernelIdeal.Fold.colS m c), ?_, ?_⟩
  · -- the kernel: every unscoped buffer ends at the last boundary's contents, read there
    refine (θ_run Cert.KernelIdeal.defs _ _).mono (fun r h c => ?_) (Cert.KernelIdeal.Fold.run_all m ρ)
    exact ⟨(Cert.KernelIdeal.Fold.read_at m ρ Cert.KernelIdeal.main_v45 (by decide) h c).trans (Cert.KernelIdeal.Fold.result0 m ρ c),
      (Cert.KernelIdeal.Fold.read_at m ρ Cert.KernelIdeal.main_v53 (by decide) h c).trans (Cert.KernelIdeal.Fold.result1 m ρ c),
      (Cert.KernelIdeal.Fold.read_at m ρ Cert.KernelIdeal.main_arg0 (by decide) h c).trans (Cert.KernelIdeal.Gen.W4_main_arg0 m ρ c),
      (Cert.KernelIdeal.Fold.read_at m ρ Cert.KernelIdeal.main_arg1 (by decide) h c).trans (Cert.KernelIdeal.Gen.W4_main_arg1 m ρ c),
      (Cert.KernelIdeal.Fold.read_at m ρ Cert.KernelIdeal.main_arg2 (by decide) h c).trans (Cert.KernelIdeal.Gen.W4_main_arg2 m ρ c),
      (Cert.KernelIdeal.Fold.read_at m ρ Cert.KernelIdeal.main_arg3 (by decide) h c).trans (Cert.KernelIdeal.Gen.W4_main_arg3 m ρ c),
      (Cert.KernelIdeal.Fold.read_at m ρ Cert.KernelIdeal.main_arg4 (by decide) h c).trans (Cert.KernelIdeal.Gen.W4_main_arg4 m ρ c),
      (Cert.KernelIdeal.Fold.read_at m ρ Cert.KernelIdeal.main_arg5 (by decide) h c).trans (Cert.KernelIdeal.Gen.W4_main_arg5 m ρ c)⟩
  · -- the reference: its generated run, each result read as the routing layer's function of ITS arguments, which agree
    refine (θ_run Cert.ReferenceIdeal.defs _ _).mono (fun r h c => ⟨?_, ?_, (h c).2.2⟩)
      (Cert.ReferenceIdeal.Value.run (F := Ideal) m' ρ')
    · refine (h c).1.trans ((Cert.ReferenceIdeal.Read.val_main_v82_eq m' c).trans
        ((Cert.ReferenceIdeal.RefValue.result0 _ _ _ _).trans ?_))
      rw [(hagree c).1, (hagree c).2.1, (hagree c).2.2.2.2.1, (hagree c).2.2.2.2.2]
    · refine (h c).2.1.trans ((Cert.ReferenceIdeal.Read.val_main_v81_eq m' c).trans
        ((Cert.ReferenceIdeal.RefValue.result1 _ _ _ _).trans ?_))
      rw [(hagree c).1, (hagree c).2.1, (hagree c).2.2.2.2.1, (hagree c).2.2.2.2.2]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
